-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x512 : Shape := ⟨2, ![6144, 512]⟩
abbrev S49152x2048 : Shape := ⟨2, ![49152, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S4096x51 : Shape := ⟨2, ![4096, 51]⟩
abbrev S51 : Shape := ⟨1, ![51]⟩
abbrev S22801x51 : Shape := ⟨2, ![22801, 51]⟩
abbrev S6144 : Shape := ⟨1, ![6144]⟩
abbrev S49152x2 : Shape := ⟨2, ![49152, 2]⟩
abbrev S_ : Shape := ⟨0, ![]⟩

class Facts : Prop where
  bcast_S_S6144x512 : S_.BroadcastsInDim S6144x512 (![] : Fin 0 → Fin S6144x512.rank)
  reducesTo_S6144x512_S_d0_1 : S6144x512.ReducesTo [0, 1] S_
  h_S_ : 0 < S_.numel
  bcast_S_S49152x2048 : S_.BroadcastsInDim S49152x2048 (![] : Fin 0 → Fin S49152x2048.rank)
  reducesTo_S49152x2048_S_d0_1 : S49152x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096x51 : S_.BroadcastsInDim S4096x51 (![] : Fin 0 → Fin S4096x51.rank)
  reducesTo_S4096x51_S_d0_1 : S4096x51.ReducesTo [0, 1] S_
  bcast_S_S51 : S_.BroadcastsInDim S51 (![] : Fin 0 → Fin S51.rank)
  reducesTo_S51_S_d0 : S51.ReducesTo [0] S_
  bcast_S_S22801x51 : S_.BroadcastsInDim S22801x51 (![] : Fin 0 → Fin S22801x51.rank)
  reducesTo_S22801x51_S_d0_1 : S22801x51.ReducesTo [0, 1] S_

variable [Facts]

def fn_part3 {F : FTy → Type} [FloatOps F] (main_v48 : IVec S_ 1) (main_v49 : FVec F S22801x51 .f32) (main_v50 : FVec F S22801x51 .f32) : IVec S_ 1 :=
  let main_v51 : IVec S22801x51 1 := cmpf .olt main_v49 main_v50
  let main_c_19 : IVec S_ 1 := constantI S_ 1 1#1
  let main_v52 : IVec S_ 1 := (fun x v => Host.reduce IntOp.andi x v reducesTo_S22801x51_S_d0_1 h_S_) main_v51 main_c_19
  let main_v53 : IVec S_ 1 := andi main_v48 main_v52
  main_v53

def fn_part2 {F : FTy → Type} [FloatOps F] (main_arg7 : FVec F S4096 .f32) (main_arg8 : FVec F S4096x51 .f32) (main_arg9 : FVec F S51 .f32) (main_arg10 : FVec F S22801x51 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x51 .f32 := Host.absf main_arg8
  let main_cst_14 : FVec F S_ .f32 := constant S_ .f32 0x7F800000#32
  let main_v40 : FVec F S4096x51 .f32 := broadcastInDim S4096x51 ![] bcast_S_S4096x51 main_cst_14
  let main_v41 : IVec S4096x51 1 := cmpf .olt main_v39 main_v40
  let main_c_15 : IVec S_ 1 := constantI S_ 1 1#1
  let main_v42 : IVec S_ 1 := (fun x v => Host.reduce IntOp.andi x v reducesTo_S4096x51_S_d0_1 h_S_) main_v41 main_c_15
  let main_v43 : IVec S_ 1 := andi main_v38 main_v42
  let main_v44 : FVec F S51 .f32 := Host.absf main_arg9
  let main_cst_16 : FVec F S_ .f32 := constant S_ .f32 0x7F800000#32
  let main_v45 : FVec F S51 .f32 := broadcastInDim S51 ![] bcast_S_S51 main_cst_16
  let main_v46 : IVec S51 1 := cmpf .olt main_v44 main_v45
  let main_c_17 : IVec S_ 1 := constantI S_ 1 1#1
  let main_v47 : IVec S_ 1 := (fun x v => Host.reduce IntOp.andi x v reducesTo_S51_S_d0 h_S_) main_v46 main_c_17
  let main_v48 : IVec S_ 1 := andi main_v43 main_v47
  let main_v49 : FVec F S22801x51 .f32 := Host.absf main_arg10
  let main_cst_18 : FVec F S_ .f32 := constant S_ .f32 0x7F800000#32
  let main_v50 : FVec F S22801x51 .f32 := broadcastInDim S22801x51 ![] bcast_S_S22801x51 main_cst_18
  fn_part3 (F := F) main_v48 main_v49 main_v50

def fn_part1 {F : FTy → Type} [FloatOps F] (main_arg4 : FVec F S1024x4096 .f32) (main_arg5 : FVec F S4096 .f32) (main_arg6 : FVec F S2048x4096 .f32) (main_arg7 : FVec F S4096 .f32) (main_arg8 : FVec F S4096x51 .f32) (main_arg9 : FVec F S51 .f32) (main_arg10 : FVec F S22801x51 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S6144x512 .f32) (main_arg1 : FVec F S49152x2048 .f32) (main_arg2 : FVec F S512x1024 .f32) (main_arg3 : FVec F S1024 .f32) (main_arg4 : FVec F S1024x4096 .f32) (main_arg5 : FVec F S4096 .f32) (main_arg6 : FVec F S2048x4096 .f32) (main_arg7 : FVec F S4096 .f32) (main_arg8 : FVec F S4096x51 .f32) (main_arg9 : FVec F S51 .f32) (main_arg10 : FVec F S22801x51 .f32) (main_arg11 : IVec S6144 32) (main_arg12 : IVec S49152x2 32) : IVec S_ 1 :=
  let main_v0 : FVec F S6144x512 .f32 := Host.absf main_arg0
  let main_cst : FVec F S_ .f32 := constant S_ .f32 0x7F800000#32
  let main_v1 : FVec F S6144x512 .f32 := broadcastInDim S6144x512 ![] bcast_S_S6144x512 main_cst
  let main_v2 : IVec S6144x512 1 := cmpf .olt main_v0 main_v1
  let main_c : IVec S_ 1 := constantI S_ 1 1#1
  let main_v3 : IVec S_ 1 := (fun x v => Host.reduce IntOp.andi x v reducesTo_S6144x512_S_d0_1 h_S_) main_v2 main_c
  let main_v4 : FVec F S49152x2048 .f32 := Host.absf main_arg1
  let main_cst_0 : FVec F S_ .f32 := constant S_ .f32 0x7F800000#32
  let main_v5 : FVec F S49152x2048 .f32 := broadcastInDim S49152x2048 ![] bcast_S_S49152x2048 main_cst_0
  let main_v6 : IVec S49152x2048 1 := cmpf .olt main_v4 main_v5
  let main_c_1 : IVec S_ 1 := constantI S_ 1 1#1
  let main_v7 : IVec S_ 1 := (fun x v => Host.reduce IntOp.andi x v reducesTo_S49152x2048_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S6144x512 : Shape := ⟨2, ![6144, 512]⟩
abbrev S49152x2048 : Shape := ⟨2, ![49152, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S4096x51 : Shape := ⟨2, ![4096, 51]⟩
abbrev S51 : Shape := ⟨1, ![51]⟩
abbrev S22801x51 : Shape := ⟨2, ![22801, 51]⟩
abbrev S6144 : Shape := ⟨1, ![6144]⟩
abbrev S49152x2 : Shape := ⟨2, ![49152, 2]⟩
abbrev S1x1024 : Shape := ⟨2, ![1, 1024]⟩
abbrev S6144x1024 : Shape := ⟨2, ![6144, 1024]⟩
abbrev S1024x512 : Shape := ⟨2, ![1024, 512]⟩
abbrev S1024x1024 : Shape := ⟨2, ![1024, 1024]⟩
abbrev S6144x2x512 : Shape := ⟨3, ![6144, 2, 512]⟩
abbrev S6144x1x512 : Shape := ⟨3, ![6144, 1, 512]⟩
abbrev S49152x1 : Shape := ⟨2, ![49152, 1]⟩
abbrev S49152 : Shape := ⟨1, ![49152]⟩
abbrev S_ : Shape := ⟨0, ![]⟩
abbrev S49152x512 : Shape := ⟨2, ![49152, 512]⟩
abbrev S49152x1024 : Shape := ⟨2, ![49152, 1024]⟩
abbrev S22801x128 : Shape := ⟨2, ![22801, 128]⟩
abbrev S4096x128 : Shape := ⟨2, ![4096, 128]⟩
abbrev S128 : Shape := ⟨1, ![128]⟩
abbrev S49152x128 : Shape := ⟨2, ![49152, 128]⟩
abbrev S1x4096 : Shape := ⟨2, ![1, 4096]⟩
abbrev S1x128 : Shape := ⟨2, ![1, 128]⟩
abbrev S256x1024 : Shape := ⟨2, ![256, 1024]⟩
abbrev S256x2048 : Shape := ⟨2, ![256, 2048]⟩
abbrev S256x128 : Shape := ⟨2, ![256, 128]⟩
abbrev S256x4096 : Shape := ⟨2, ![256, 4096]⟩
abbrev S49152x51 : Shape := ⟨2, ![49152, 51]⟩

abbrev nBuf : Space → Nat
  | .hbm => 94
  | .vmem => 20
  | .smem => 0
  | _ => 0

abbrev bufTy : (tb : Table) → Fin (tcTables nBuf tb) → BufTy
  | .hbm, ⟨0, _⟩ => ⟨S6144x512, .f32⟩
  | .hbm, ⟨1, _⟩ => ⟨S49152x2048, .f32⟩
  | .hbm, ⟨2, _⟩ => ⟨S512x1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S2048x4096, .f32⟩
  | .hbm, ⟨7, _⟩ => ⟨S4096, .f32⟩
  | .hbm, ⟨8, _⟩ => ⟨S4096x51, .f32⟩
  | .hbm, ⟨9, _⟩ => ⟨S51, .f32⟩
  | .hbm, ⟨10, _⟩ => ⟨S22801x51, .f32⟩
  | .hbm, ⟨11, _⟩ => ⟨S6144, .i32⟩
  | .hbm, ⟨12, _⟩ => ⟨S49152x2, .i32⟩
  | .hbm, ⟨13, _⟩ => ⟨S6144x512, .bf16⟩
  | .hbm, ⟨14, _⟩ => ⟨S512x1024, .bf16⟩
  | .hbm, ⟨15, _⟩ => ⟨S1x1024, .f32⟩
  | .hbm, ⟨16, _⟩ => ⟨S6144x1024, .bf16⟩
  | .hbm, ⟨17, _⟩ => ⟨S6144x2x512, .bf16⟩
  | .hbm, ⟨18, _⟩ => ⟨S6144x1x512, .bf16⟩
  | .hbm, ⟨19, _⟩ => ⟨S6144x512, .bf16⟩
  | .hbm, ⟨20, _⟩ => ⟨S6144x1x512, .bf16⟩
  | .hbm, ⟨21, _⟩ => ⟨S6144x512, .bf16⟩
  | .hbm, ⟨22, _⟩ => ⟨S49152x1, .i32⟩
  | .hbm, ⟨23, _⟩ => ⟨S49152, .i32⟩
  | .hbm, ⟨24, _⟩ => ⟨S49152x1, .i32⟩
  | .hbm, ⟨25, _⟩ => ⟨S49152, .i32⟩
  | .hbm, ⟨26, _⟩ => ⟨S_, .i32⟩
  | .hbm, ⟨27, _⟩ => ⟨S49152, .i32⟩
  | .hbm, ⟨28, _⟩ => ⟨S49152, .i1⟩
  | .hbm, ⟨29, _⟩ => ⟨S_, .i32⟩
  | .hbm, ⟨30, _⟩ => ⟨S49152, .i32⟩
  | .hbm, ⟨31, _⟩ => ⟨S49152, .i32⟩
  | .hbm, ⟨32, _⟩ => ⟨S49152, .i32⟩
  | .hbm, ⟨33, _⟩ => ⟨S49152x1, .i32⟩
  | .hbm, ⟨34, _⟩ => ⟨S49152x512, .bf16⟩
  | .hbm, ⟨35, _⟩ => ⟨S_, .i32⟩
  | .hbm, ⟨36, _⟩ => ⟨S49152, .i32⟩
  | .hbm, ⟨37, _⟩ => ⟨S49152, .i1⟩
  | .hbm, ⟨38, _⟩ => ⟨S_, .i32⟩
  | .hbm, ⟨39, _⟩ => ⟨S49152, .i32⟩
  | .hbm, ⟨40, _⟩ => ⟨S49152, .i32⟩
  | .hbm, ⟨41, _⟩ => ⟨S49152, .i32⟩
  | .hbm, ⟨42, _⟩ => ⟨S49152x1, .i32⟩
  | .hbm, ⟨43, _⟩ => ⟨S49152x512, .bf16⟩
  | .hbm, ⟨44, _⟩ => ⟨S49152x1024, .bf16⟩
  | .hbm, ⟨45, _⟩ => ⟨S_, .i32⟩
  | .hbm, ⟨46, _⟩ => ⟨S49152, .i32⟩
  | .hbm, ⟨47, _⟩ => ⟨S49152, .i1⟩
  | .hbm, ⟨48, _⟩ => ⟨S_, .i32⟩
  | .hbm, ⟨49, _⟩ => ⟨S49152, .i32⟩
  | .hbm, ⟨50, _⟩ => ⟨S49152, .i32⟩
  | .hbm, ⟨51, _⟩ => ⟨S49152, .i32⟩
  | .hbm, ⟨52, _⟩ => ⟨S49152x1, .i32⟩
  | .hbm, ⟨53, _⟩ => ⟨S49152, .i32⟩
  | .hbm, ⟨54, _⟩ => ⟨S_, .i32⟩
  | .hbm, ⟨55, _⟩ => ⟨S49152, .i32⟩
  | .hbm, ⟨56, _⟩ => ⟨S49152, .i32⟩
  | .hbm, ⟨57, _⟩ => ⟨S_, .i32⟩
  | .hbm, ⟨58, _⟩ => ⟨S49152, .i32⟩
  | .hbm, ⟨59, _⟩ => ⟨S49152, .i1⟩
  | .hbm, ⟨60, _⟩ => ⟨S_, .i32⟩
  | .hbm, ⟨61, _⟩ => ⟨S49152, .i32⟩
  | .hbm, ⟨62, _⟩ => ⟨S49152, .i32⟩
  | .hbm, ⟨63, _⟩ => ⟨S49152, .i32⟩
  | .hbm, ⟨64, _⟩ => ⟨S49152x1, .i32⟩
  | .hbm, ⟨65, _⟩ => ⟨S49152, .i32⟩
  | .hbm, ⟨66, _⟩ => ⟨S49152, .i32⟩
  | .hbm, ⟨67, _⟩ => ⟨S_, .i32⟩
  | .hbm, ⟨68, _⟩ => ⟨S_, .f32⟩
  | .hbm, ⟨69, _⟩ => ⟨S22801x128, .f32⟩
  | .hbm, ⟨70, _⟩ => ⟨S_, .i32⟩
  | .hbm, ⟨71, _⟩ => ⟨S_, .f32⟩
  | .hbm, ⟨72, _⟩ => ⟨S4096x128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S_, .i32⟩
  | .hbm, ⟨77, _⟩ => ⟨S49152, .i32⟩
  | .hbm, ⟨78, _⟩ => ⟨S49152, .i1⟩
  | .hbm, ⟨79, _⟩ => ⟨S_, .i32⟩
  | .hbm, ⟨80, _⟩ => ⟨S49152, .i32⟩
  | .hbm, ⟨81, _⟩ => ⟨S49152, .i32⟩
  | .hbm, ⟨82, _⟩ => ⟨S49152, .i32⟩
  | .hbm, ⟨83, _⟩ => ⟨S49152x1, .i32⟩
  | .hbm, ⟨84, _⟩ => ⟨S49152x128, .f32⟩
  | .hbm, ⟨85, _⟩ => ⟨S49152x2048, .bf16⟩
  | .hbm, ⟨86, _⟩ => ⟨S1024x4096, .bf16⟩
  | .hbm, ⟨87, _⟩ => ⟨S2048x4096, .bf16⟩
  | .hbm, ⟨88, _⟩ => ⟨S4096x128, .bf16⟩
  | .hbm, ⟨89, _⟩ => ⟨S1x4096, .f32⟩
  | .hbm, ⟨90, _⟩ => ⟨S1x4096, .f32⟩
  | .hbm, ⟨91, _⟩ => ⟨S1x128, .f32⟩
  | .hbm, ⟨92, _⟩ => ⟨S49152x128, .f32⟩
  | .hbm, ⟨93, _⟩ => ⟨S49152x51, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S1024x4096, .bf16⟩
  | .local _ .vmem, ⟨13, _⟩ => ⟨S1x4096, .f32⟩
  | .local _ .vmem, ⟨14, _⟩ => ⟨S2048x4096, .bf16⟩
  | .local _ .vmem, ⟨15, _⟩ => ⟨S1x4096, .f32⟩
  | .local _ .vmem, ⟨16, _⟩ => ⟨S4096x128, .bf16⟩
  | .local _ .vmem, ⟨17, _⟩ => ⟨S1x128, .f32⟩
  | .local _ .vmem, ⟨18, _⟩ => ⟨S256x128, .f32⟩
  | .local _ .vmem, ⟨19, _⟩ => ⟨S256x128, .f32⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_call0_v0 : Ref sig .tc := ⟨.hbm, 68, rfl⟩
abbrev main_v45 : Ref sig .tc := ⟨.hbm, 69, rfl⟩
abbrev main_c_9 : Ref sig .tc := ⟨.hbm, 70, rfl⟩
abbrev main_call1_v0 : Ref sig .tc := ⟨.hbm, 71, rfl⟩
abbrev main_v46 : Ref sig .tc := ⟨.hbm, 72, rfl⟩
abbrev main_c_10 : Ref sig .tc := ⟨.hbm, 73, rfl⟩
abbrev main_call2_v0 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![192], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S6144x1024_S6144x2x512 : S6144x1024.ShapeCasts S6144x2x512
  slices_S6144x2x512_S6144x1x512_0_0_0 : S6144x2x512.Slices ![0, 0, 0] S6144x1x512
  shapeCasts_S6144x1x512_S6144x512 : S6144x1x512.ShapeCasts S6144x512
  slices_S6144x2x512_S6144x1x512_0_1_0 : S6144x2x512.Slices ![0, 1, 0] S6144x1x512
  slices_S49152x2_S49152x1_0_0 : S49152x2.Slices ![0, 0] S49152x1
  shapeCasts_S49152x1_S49152 : S49152x1.ShapeCasts S49152
  slices_S49152x2_S49152x1_0_1 : S49152x2.Slices ![0, 1] S49152x1
  bcast_S_S49152 : S_.BroadcastsInDim S49152 (![] : Fin 0 → Fin S49152.rank)
  bcast_S49152_S49152x1_0 : S49152.BroadcastsInDim S49152x1 (![0] : Fin 1 → Fin S49152x1.rank)
  concatenates_S49152x512_S49152x512_S49152x1024_d1 : Shape.Concatenates [S49152x512, S49152x512] S49152x1024 1
  pads_S22801x51_S22801x128_000_0770 : S22801x51.Pads (![0, 0] : Fin 2 → Nat) ![0, 77] ![0, 0] S22801x128
  h_S_ : 0 < S_.numel
  pads_S4096x51_S4096x128_000_0770 : S4096x51.Pads (![0, 0] : Fin 2 → Nat) ![0, 77] ![0, 0] S4096x128
  pads_S51_S128_0770 : S51.Pads (![0] : Fin 1 → Nat) ![77] ![0] S128
  shapeCasts_S4096_S1x4096 : S4096.ShapeCasts S1x4096
  shapeCasts_S128_S1x128 : S128.ShapeCasts S1x128
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S49152x128_S49152x51_0_0 : S49152x128.Slices ![0, 0] S49152x51
  dot_S1024x512_S512x1024_S1024x1024_1_0_0_1_n_n_wf : DotDims.WF S1024x512 S512x1024 S1024x1024 [1] [0] [0] [1] [] []
  gather_S6144x512_S49152x1_S49152x512_1_0_n_n_0_1_1512_wf : GatherDims.WF S6144x512 S49152x1 S49152x512 [1] [0] [] [0] [] 1 ![1, 512]
  gather_S6144_S49152x1_S49152_n_0_n_n_0_1_1_wf : GatherDims.WF S6144 S49152x1 S49152 [] [0] [] [0] [] 1 ![1]
  gather_S22801x128_S49152x1_S49152x128_1_0_n_n_0_1_1128_wf : GatherDims.WF S22801x128 S49152x1 S49152x128 [1] [0] [] [0] [] 1 ![1, 128]
  dot_S256x1024_S1024x4096_S256x4096_1_0_0_1_n_n_wf : DotDims.WF S256x1024 S1024x4096 S256x4096 [1] [0] [0] [1] [] []
  dot_S256x2048_S2048x4096_S256x4096_1_0_0_1_n_n_wf : DotDims.WF S256x2048 S2048x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S6144x512.size a
  hwx0_0 : ∀ i : grid0.Coords, EltTy.bits .bf16 = 32 ∨ (Rect.block (s := S6144x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S6144x1024.size a
  hwx0_3 : ∀ i : grid0.Coords, EltTy.bits .bf16 = 32 ∨ (Rect.block (s := S6144x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S49152x1024.size a
  hwx1_0 : ∀ i : grid1.Coords, EltTy.bits .bf16 = 32 ∨ (Rect.block (s := S49152x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S49152x2048.size a
  hwx1_1 : ∀ i : grid1.Coords, EltTy.bits .bf16 = 32 ∨ (Rect.block (s := S49152x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S49152x128.size a
  hwx1_2 : ∀ i : grid1.Coords, EltTy.bits .f32 = 32 ∨ (Rect.block (s := S49152x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x4096.size a ≤ S2048x4096.size a
  hwx1_5 : ∀ i : grid1.Coords, EltTy.bits .bf16 = 32 ∨ (Rect.block (s := S2048x4096) S2048x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S4096x128.size a
  hwx1_7 : ∀ i : grid1.Coords, EltTy.bits .bf16 = 32 ∨ (Rect.block (s := S4096x128) S4096x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S49152x128.size a
  hwx1_9 : ∀ i : grid1.Coords, EltTy.bits .f32 = 32 ∨ (Rect.block (s := S49152x128) S256x128.size (cc1_transform_9 i) (hinb1_9 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S6144x512_S49152x1_S49152x512_1_0_n_n_0_1_1512 : GatherDims S6144x512 S49152x1 S49152x512 where
  offsetDims := [1]
  collapsedSliceDims := [0]
  operandBatchingDims := []
  startIndicesBatchingDims := []
  startIndexMap := [0]
  indexVectorDim := 1
  sliceSizes := ![1, 512]
  wf := gather_S6144x512_S49152x1_S49152x512_1_0_n_n_0_1_1512_wf
def gather_S6144_S49152x1_S49152_n_0_n_n_0_1_1 : GatherDims S6144 S49152x1 S49152 where
  offsetDims := []
  collapsedSliceDims := [0]
  operandBatchingDims := []
  startIndicesBatchingDims := []
  startIndexMap := [0]
  indexVectorDim := 1
  sliceSizes := ![1]
  wf := gather_S6144_S49152x1_S49152_n_0_n_n_0_1_1_wf
def gather_S22801x128_S49152x1_S49152x128_1_0_n_n_0_1_1128 : GatherDims S22801x128 S49152x1 S49152x128 where
  offsetDims := [1]
  collapsedSliceDims := [0]
  operandBatchingDims := []
  startIndicesBatchingDims := []
  startIndexMap := [0]
  indexVectorDim := 1
  sliceSizes := ![1, 128]
  wf := gather_S22801x128_S49152x1_S49152x128_1_0_n_n_0_1_1128_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S2048x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S4096x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S256x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S6144x512 : Shape := ⟨2, ![6144, 512]⟩
abbrev S49152x2048 : Shape := ⟨2, ![49152, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S4096x51 : Shape := ⟨2, ![4096, 51]⟩
abbrev S51 : Shape := ⟨1, ![51]⟩
abbrev S22801x51 : Shape := ⟨2, ![22801, 51]⟩
abbrev S6144 : Shape := ⟨1, ![6144]⟩
abbrev S49152x2 : Shape := ⟨2, ![49152, 2]⟩
abbrev S6144x1024 : Shape := ⟨2, ![6144, 1024]⟩
abbrev S1x1024 : Shape := ⟨2, ![1, 1024]⟩
abbrev S6144x2x512 : Shape := ⟨3, ![6144, 2, 512]⟩
abbrev S6144x1x512 : Shape := ⟨3, ![6144, 1, 512]⟩
abbrev S49152x1 : Shape := ⟨2, ![49152, 1]⟩
abbrev S49152 : Shape := ⟨1, ![49152]⟩
abbrev S_ : Shape := ⟨0, ![]⟩
abbrev S49152x512 : Shape := ⟨2, ![49152, 512]⟩
abbrev S49152x1024 : Shape := ⟨2, ![49152, 1024]⟩
abbrev S49152x4096 : Shape := ⟨2, ![49152, 4096]⟩
abbrev S1x4096 : Shape := ⟨2, ![1, 4096]⟩
abbrev S49152x51 : Shape := ⟨2, ![49152, 51]⟩
abbrev S1x51 : Shape := ⟨2, ![1, 51]⟩

abbrev nBuf : Space → Nat
  | .hbm => 94
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S49152x2048, .f32⟩
  | .hbm, ⟨2, _⟩ => ⟨S512x1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S2048x4096, .f32⟩
  | .hbm, ⟨7, _⟩ => ⟨S4096, .f32⟩
  | .hbm, ⟨8, _⟩ => ⟨S4096x51, .f32⟩
  | .hbm, ⟨9, _⟩ => ⟨S51, .f32⟩
  | .hbm, ⟨10, _⟩ => ⟨S22801x51, .f32⟩
  | .hbm, ⟨11, _⟩ => ⟨S6144, .i32⟩
  | .hbm, ⟨12, _⟩ => ⟨S49152x2, .i32⟩
  | .hbm, ⟨13, _⟩ => ⟨S6144x1024, .f32⟩
  | .hbm, ⟨14, _⟩ => ⟨S1x1024, .f32⟩
  | .hbm, ⟨15, _⟩ => ⟨S6144x1024, .f32⟩
  | .hbm, ⟨16, _⟩ => ⟨S6144x1024, .f32⟩
  | .hbm, ⟨17, _⟩ => ⟨S6144x2x512, .f32⟩
  | .hbm, ⟨18, _⟩ => ⟨S6144x1x512, .f32⟩
  | .hbm, ⟨19, _⟩ => ⟨S6144x512, .f32⟩
  | .hbm, ⟨20, _⟩ => ⟨S6144x1x512, .f32⟩
  | .hbm, ⟨21, _⟩ => ⟨S6144x512, .f32⟩
  | .hbm, ⟨22, _⟩ => ⟨S49152x1, .i32⟩
  | .hbm, ⟨23, _⟩ => ⟨S49152, .i32⟩
  | .hbm, ⟨24, _⟩ => ⟨S_, .i32⟩
  | .hbm, ⟨25, _⟩ => ⟨S49152, .i32⟩
  | .hbm, ⟨26, _⟩ => ⟨S49152, .i1⟩
  | .hbm, ⟨27, _⟩ => ⟨S_, .i32⟩
  | .hbm, ⟨28, _⟩ => ⟨S49152, .i32⟩
  | .hbm, ⟨29, _⟩ => ⟨S49152, .i32⟩
  | .hbm, ⟨30, _⟩ => ⟨S49152, .i32⟩
  | .hbm, ⟨31, _⟩ => ⟨S49152x1, .i32⟩
  | .hbm, ⟨32, _⟩ => ⟨S49152x512, .f32⟩
  | .hbm, ⟨33, _⟩ => ⟨S49152x1, .i32⟩
  | .hbm, ⟨34, _⟩ => ⟨S49152, .i32⟩
  | .hbm, ⟨35, _⟩ => ⟨S_, .i32⟩
  | .hbm, ⟨36, _⟩ => ⟨S49152, .i32⟩
  | .hbm, ⟨37, _⟩ => ⟨S49152, .i1⟩
  | .hbm, ⟨38, _⟩ => ⟨S_, .i32⟩
  | .hbm, ⟨39, _⟩ => ⟨S49152, .i32⟩
  | .hbm, ⟨40, _⟩ => ⟨S49152, .i32⟩
  | .hbm, ⟨41, _⟩ => ⟨S49152, .i32⟩
  | .hbm, ⟨42, _⟩ => ⟨S49152x1, .i32⟩
  | .hbm, ⟨43, _⟩ => ⟨S49152x512, .f32⟩
  | .hbm, ⟨44, _⟩ => ⟨S49152x1024, .f32⟩
  | .hbm, ⟨45, _⟩ => ⟨S49152x4096, .f32⟩
  | .hbm, ⟨46, _⟩ => ⟨S1x4096, .f32⟩
  | .hbm, ⟨47, _⟩ => ⟨S49152x4096, .f32⟩
  | .hbm, ⟨48, _⟩ => ⟨S49152x4096, .f32⟩
  | .hbm, ⟨49, _⟩ => ⟨S49152x4096, .f32⟩
  | .hbm, ⟨50, _⟩ => ⟨S1x4096, .f32⟩
  | .hbm, ⟨51, _⟩ => ⟨S49152x4096, .f32⟩
  | .hbm, ⟨52, _⟩ => ⟨S49152x4096, .f32⟩
  | .hbm, ⟨53, _⟩ => ⟨S49152x4096, .f32⟩
  | .hbm, ⟨54, _⟩ => ⟨S49152x51, .f32⟩
  | .hbm, ⟨55, _⟩ => ⟨S1x51, .f32⟩
  | .hbm, ⟨56, _⟩ => ⟨S49152x51, .f32⟩
  | .hbm, ⟨57, _⟩ => ⟨S49152x51, .f32⟩
  | .hbm, ⟨58, _⟩ => ⟨S49152x1, .i32⟩
  | .hbm, ⟨59, _⟩ => ⟨S49152, .i32⟩
  | .hbm, ⟨60, _⟩ => ⟨S_, .i32⟩
  | .hbm, ⟨61, _⟩ => ⟨S49152, .i32⟩
  | .hbm, ⟨62, _⟩ => ⟨S49152, .i1⟩
  | .hbm, ⟨63, _⟩ => ⟨S_, .i32⟩
  | .hbm, ⟨64, _⟩ => ⟨S49152, .i32⟩
  | .hbm, ⟨65, _⟩ => ⟨S49152, .i32⟩
  | .hbm, ⟨66, _⟩ => ⟨S49152, .i32⟩
  | .hbm, ⟨67, _⟩ => ⟨S49152x1, .i32⟩
  | .hbm, ⟨68, _⟩ => ⟨S49152, .i32⟩
  | .hbm, ⟨69, _⟩ => ⟨S_, .i32⟩
  | .hbm, ⟨70, _⟩ => ⟨S49152, .i32⟩
  | .hbm, ⟨71, _⟩ => ⟨S49152, .i32⟩
  | .hbm, ⟨72, _⟩ => ⟨S49152x1, .i32⟩
  | .hbm, ⟨73, _⟩ => ⟨S49152, .i32⟩
  | .hbm, ⟨74, _⟩ => ⟨S_, .i32⟩
  | .hbm, ⟨75, _⟩ => ⟨S49152, .i32⟩
  | .hbm, ⟨76, _⟩ => ⟨S49152, .i1⟩
  | .hbm, ⟨77, _⟩ => ⟨S_, .i32⟩
  | .hbm, ⟨78, _⟩ => ⟨S49152, .i32⟩
  | .hbm, ⟨79, _⟩ => ⟨S49152, .i32⟩
  | .hbm, ⟨80, _⟩ => ⟨S49152, .i32⟩
  | .hbm, ⟨81, _⟩ => ⟨S49152x1, .i32⟩
  | .hbm, ⟨82, _⟩ => ⟨S49152, .i32⟩
  | .hbm, ⟨83, _⟩ => ⟨S49152, .i32⟩
  | .hbm, ⟨84, _⟩ => ⟨S_, .i32⟩
  | .hbm, ⟨85, _⟩ => ⟨S49152, .i32⟩
  | .hbm, ⟨86, _⟩ => ⟨S49152, .i1⟩
  | .hbm, ⟨87, _⟩ => ⟨S_, .i32⟩
  | .hbm, ⟨88, _⟩ => ⟨S49152, .i32⟩
  | .hbm, ⟨89, _⟩ => ⟨S49152, .i32⟩
  | .hbm, ⟨90, _⟩ => ⟨S49152, .i32⟩
  | .hbm, ⟨91, _⟩ => ⟨S49152x1, .i32⟩
  | .hbm, ⟨92, _⟩ => ⟨S49152x51, .f32⟩
  | .hbm, ⟨93, _⟩ => ⟨S49152x51, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_3 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_6 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_8 : Ref sig .tc := ⟨.hbm, 84, rfl⟩
abbrev main_v62 : Ref sig .tc := ⟨.hbm, 85, rfl⟩
abbrev main_v63 : Ref sig .tc := ⟨.hbm, 86, rfl⟩
abbrev main_c_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S6144x1024_0_1 : S1x1024.BroadcastsInDim S6144x1024 (![0, 1] : Fin 2 → Fin S6144x1024.rank)
  shapeCasts_S6144x1024_S6144x2x512 : S6144x1024.ShapeCasts S6144x2x512
  slices_S6144x2x512_S6144x1x512_0_0_0 : S6144x2x512.Slices ![0, 0, 0] S6144x1x512
  shapeCasts_S6144x1x512_S6144x512 : S6144x1x512.ShapeCasts S6144x512
  slices_S6144x2x512_S6144x1x512_0_1_0 : S6144x2x512.Slices ![0, 1, 0] S6144x1x512
  slices_S49152x2_S49152x1_0_0 : S49152x2.Slices ![0, 0] S49152x1
  shapeCasts_S49152x1_S49152 : S49152x1.ShapeCasts S49152
  bcast_S_S49152 : S_.BroadcastsInDim S49152 (![] : Fin 0 → Fin S49152.rank)
  bcast_S49152_S49152x1_0 : S49152.BroadcastsInDim S49152x1 (![0] : Fin 1 → Fin S49152x1.rank)
  slices_S49152x2_S49152x1_0_1 : S49152x2.Slices ![0, 1] S49152x1
  concatenates_S49152x512_S49152x512_S49152x1024_d1 : Shape.Concatenates [S49152x512, S49152x512] S49152x1024 1
  bcast_S4096_S1x4096_1 : S4096.BroadcastsInDim S1x4096 (![1] : Fin 1 → Fin S1x4096.rank)
  bcast_S1x4096_S49152x4096_0_1 : S1x4096.BroadcastsInDim S49152x4096 (![0, 1] : Fin 2 → Fin S49152x4096.rank)
  bcast_S51_S1x51_1 : S51.BroadcastsInDim S1x51 (![1] : Fin 1 → Fin S1x51.rank)
  bcast_S1x51_S49152x51_0_1 : S1x51.BroadcastsInDim S49152x51 (![0, 1] : Fin 2 → Fin S49152x51.rank)
  dot_S6144x512_S512x1024_S6144x1024_1_0_0_1_n_n_wf : DotDims.WF S6144x512 S512x1024 S6144x1024 [1] [0] [0] [1] [] []
  gather_S6144x512_S49152x1_S49152x512_1_0_n_n_0_1_1512_wf : GatherDims.WF S6144x512 S49152x1 S49152x512 [1] [0] [] [0] [] 1 ![1, 512]
  dot_S49152x1024_S1024x4096_S49152x4096_1_0_0_1_n_n_wf : DotDims.WF S49152x1024 S1024x4096 S49152x4096 [1] [0] [0] [1] [] []
  dot_S49152x2048_S2048x4096_S49152x4096_1_0_0_1_n_n_wf : DotDims.WF S49152x2048 S2048x4096 S49152x4096 [1] [0] [0] [1] [] []
  dot_S49152x4096_S4096x51_S49152x51_1_0_0_1_n_n_wf : DotDims.WF S49152x4096 S4096x51 S49152x51 [1] [0] [0] [1] [] []
  gather_S6144_S49152x1_S49152_n_0_n_n_0_1_1_wf : GatherDims.WF S6144 S49152x1 S49152 [] [0] [] [0] [] 1 ![1]
  gather_S22801x51_S49152x1_S49152x51_1_0_n_n_0_1_151_wf : GatherDims.WF S22801x51 S49152x1 S49152x51 [1] [0] [] [0] [] 1 ![1, 51]

variable [Facts₀]

def dot_S6144x512_S512x1024_S6144x1024_1_0_0_1_n_n : DotDims S6144x512 S512x1024 S6144x1024 where
  lhsContracting := [1]
  rhsContracting := [0]
  lhsNonContracting := [0]
  rhsNonContracting := [1]
  lhsBatch := []
  rhsBatch := []
  wf := dot_S6144x512_S512x1024_S6144x1024_1_0_0_1_n_n_wf
def gather_S6144x512_S49152x1_S49152x512_1_0_n_n_0_1_1512 : GatherDims S6144x512 S49152x1 S49152x512 where
  offsetDims := [1]
  collapsedSliceDims := [0]
  operandBatchingDims := []
  startIndicesBatchingDims := []
  startIndexMap := [0]
  indexVectorDim := 1
  sliceSizes := ![1, 512]
  wf := gather_S6144x512_S49152x1_S49152x512_1_0_n_n_0_1_1512_wf
def dot_S49152x1024_S1024x4096_S49152x4096_1_0_0_1_n_n : DotDims S49152x1024 S1024x4096 S49152x4096 where
  lhsContracting := [1]
  rhsContracting := [0]
  lhsNonContracting := [0]
  rhsNonContracting := [1]
  lhsBatch := []
  rhsBatch := []
  wf := dot_S49152x1024_S1024x4096_S49152x4096_1_0_0_1_n_n_wf
def dot_S49152x2048_S2048x4096_S49152x4096_1_0_0_1_n_n : DotDims S49152x2048 S2048x4096 S49152x4096 where
  lhsContracting := [1]
  rhsContracting := [0]
  lhsNonContracting := [0]
  rhsNonContracting := [1]
  lhsBatch := []
  rhsBatch := []
  wf := dot_S49152x2048_S2048x4096_S49152x4096_1_0_0_1_n_n_wf
def dot_S49152x4096_S4096x51_S49152x51_1_0_0_1_n_n : DotDims S49152x4096 S4096x51 S49152x51 where
  lhsContracting := [1]
  rhsContracting := [0]
  lhsNonContracting := [0]
  rhsNonContracting := [1]
  lhsBatch := []
  rhsBatch := []
  wf := dot_S49152x4096_S4096x51_S49152x51_1_0_0_1_n_n_wf
def gather_S6144_S49152x1_S49152_n_0_n_n_0_1_1 : GatherDims S6144 S49152x1 S49152 where
  offsetDims := []
  collapsedSliceDims := [0]
  operandBatchingDims := []
  startIndicesBatchingDims := []
  startIndexMap := [0]
  indexVectorDim := 1
  sliceSizes := ![1]
  wf := gather_S6144_S49152x1_S49152_n_0_n_n_0_1_1_wf
def gather_S22801x51_S49152x1_S49152x51_1_0_n_n_0_1_151 : GatherDims S22801x51 S49152x1 S49152x51 where
  offsetDims := [1]
  collapsedSliceDims := [0]
  operandBatchingDims := []
  startIndicesBatchingDims := []
  startIndexMap := [0]
  indexVectorDim := 1
  sliceSizes := ![1, 51]
  wf := gather_S22801x51_S49152x1_S49152x51_1_0_n_n_0_1_151_wf

class Facts : Prop extends Facts₀ where

variable [Facts]
-- ==== Proof.KernelRun.lean ====
/-
  The idealized kernel's run with its result kept.

  The program is three stretches of array operations around two grid-launched bodies. Its run passes through eleven
  boundaries, and at each one every buffer of a core holds a known array: the launch memory, then what a stretch's
  operations make of the previous boundary's arrays, then, after a launched body, the same arrays except that the body's
  output array holds what its grid points wrote back. At the last boundary this names the returned array, the first 51
  columns of the second body's output, beside the thirteen argument arrays, which nothing ever writes.
-/
import proofs.«163864_j16269336118078_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the returned array at the last boundary's contents and every
    argument array as launched. -/
theorem run_result : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.Whole

end
-- ==== Proof.SharedChain.lean ====
/-
  The array functions both programs apply on the way from the projected rows to the result.

  Both programs take the projected rows E (6144 × 1024), split each row in two halves (a head half and a tail half of 512),
  look up for every pair r the head half of row pair(r, 0) and the tail half of row pair(r, 1) — a negative row number
  counted from the end — and join the two halves into one row of 1024: the pair features. Both also form, from the class
  of each of the two rows, the number class(head)·151 + class(tail) of a row of the frequency table, wrapped the same way.
  These functions are named here once, over any element type where only the layout matters, so that the two programs'
  values are stated over the same terms; and the reference's whole result is written over them.
-/
import proofs.«163864_j16269336118078_2_alg».proof.Proof.Gen.ReferenceIdeal.Run
import Idealize.ShloMosaic.PureOps.Ideal

set_option maxRecDepth 16384

noncomputable section

namespace Cert.ReferenceIdeal.Shared

open Cert.ReferenceIdeal Cert.ReferenceIdeal.Gen Idealize.ShloMosaic Idealize.ShloMosaic.TcCoe Idealize.SL.Sem

variable {α : Type}

/-- Column 0 of the pair table as a column of row numbers, a negative entry counted from the end (plus 6144). -/
def headIdx (a12 : (⟨S49152x2, .i32⟩ : BufTy).Contents (Elt Ideal)) : (⟨S49152x1, .i32⟩ : BufTy).Contents (Elt Ideal) :=
  (broadcastInDim S49152x1 ![0] bcast_S49152_S49152x1_0 (select (cmpi .slt (shapeCast _ (extractStridedSlice S49152x1 ![0, 0] a12 slices_S49152x2_S49152x1_0_0) shapeCasts_S49152x1_S49152) (broadcastInDim S49152 ![] bcast_S_S49152 (constantI S_ 32 0#32))) (addi (shapeCast _ (extractStridedSlice S49152x1 ![0, 0] a12 slices_S49152x2_S49152x1_0_0) shapeCasts_S49152x1_S49152) (broadcastInDim S49152 ![] bcast_S_S49152 (constantI S_ 32 6144#32))) (shapeCast _ (extractStridedSlice S49152x1 ![0, 0] a12 slices_S49152x2_S49152x1_0_0) shapeCasts_S49152x1_S49152)))

/-- Column 1 of the pair table, wrapped the same way. -/
def tailIdx (a12 : (⟨S49152x2, .i32⟩ : BufTy).Contents (Elt Ideal)) : (⟨S49152x1, .i32⟩ : BufTy).Contents (Elt Ideal) :=
  (broadcastInDim S49152x1 ![0] bcast_S49152_S49152x1_0 (select (cmpi .slt (shapeCast _ (extractStridedSlice S49152x1 ![0, 1] a12 slices_S49152x2_S49152x1_0_1) shapeCasts_S49152x1_S49152) (broadcastInDim S49152 ![] bcast_S_S49152 (constantI S_ 32 0#32))) (addi (shapeCast _ (extractStridedSlice S49152x1 ![0, 1] a12 slices_S49152x2_S49152x1_0_1) shapeCasts_S49152x1_S49152) (broadcastInDim S49152 ![] bcast_S_S49152 (constantI S_ 32 6144#32))) (shapeCast _ (extractStridedSlice S49152x1 ![0, 1] a12 slices_S49152x2_S49152x1_0_1) shapeCasts_S49152x1_S49152)))

/-- The pair features: row r is the head half of row head(r) of E followed by the tail half of row tail(r). -/
def pairFeat (E : S6144x1024.Idx → α) (a12 : (⟨S49152x2, .i32⟩ : BufTy).Contents (Elt Ideal)) : S49152x1024.Idx → α :=
  (concatenate S49152x1024 1 [⟨S49152x512, (Host.gather gather_S6144x512_S49152x1_S49152x512_1_0_n_n_0_1_1512 (shapeCast _ (extractStridedSlice S6144x1x512 ![0, 0, 0] (shapeCast _ E shapeCasts_S6144x1024_S6144x2x512) slices_S6144x2x512_S6144x1x512_0_0_0) shapeCasts_S6144x1x512_S6144x512) (headIdx a12))⟩, ⟨S49152x512, (Host.gather gather_S6144x512_S49152x1_S49152x512_1_0_n_n_0_1_1512 (shapeCast _ (extractStridedSlice S6144x1x512 ![0, 1, 0] (shapeCast _ E shapeCasts_S6144x1024_S6144x2x512) slices_S6144x2x512_S6144x1x512_0_1_0) shapeCasts_S6144x1x512_S6144x512) (tailIdx a12))⟩] concatenates_S49152x512_S49152x512_S49152x1024_d1)

/-- The frequency table's row for pair r: class(head(r))·151 + class(tail(r)), a negative number wrapped by 22801. -/
def biasIdx (a11 : (⟨S6144, .i32⟩ : BufTy).Contents (Elt Ideal)) (a12 : (⟨S49152x2, .i32⟩ : BufTy).Contents (Elt Ideal)) :
    (⟨S49152x1, .i32⟩ : BufTy).Contents (Elt Ideal) :=
  (broadcastInDim S49152x1 ![0] bcast_S49152_S49152x1_0 (select (cmpi .slt (addi (muli (Host.gather gather_S6144_S49152x1_S49152_n_0_n_n_0_1_1 a11 (headIdx a12)) (broadcastInDim S49152 ![] bcast_S_S49152 (constantI S_ 32 151#32))) (Host.gather gather_S6144_S49152x1_S49152_n_0_n_n_0_1_1 a11 (tailIdx a12))) (broadcastInDim S49152 ![] bcast_S_S49152 (constantI S_ 32 0#32))) (addi (addi (muli (Host.gather gather_S6144_S49152x1_S49152_n_0_n_n_0_1_1 a11 (headIdx a12)) (broadcastInDim S49152 ![] bcast_S_S49152 (constantI S_ 32 151#32))) (Host.gather gather_S6144_S49152x1_S49152_n_0_n_n_0_1_1 a11 (tailIdx a12))) (broadcastInDim S49152 ![] bcast_S_S49152 (constantI S_ 32 22801#32))) (addi (muli (Host.gather gather_S6144_S49152x1_S49152_n_0_n_n_0_1_1 a11 (headIdx a12)) (broadcastInDim S49152 ![] bcast_S_S49152 (constantI S_ 32 151#32))) (Host.gather gather_S6144_S49152x1_S49152_n_0_n_n_0_1_1 a11 (tailIdx a12)))))

/-- The projected rows as the reference computes them: X·W + b. -/
def projRef (a0 : FVec Ideal S6144x512 .f32) (a2 : FVec Ideal S512x1024 .f32) (a3 : FVec Ideal S1024 .f32) : FVec Ideal S6144x1024 .f32 :=
  (addf (Host.dotGeneral dot_S6144x512_S512x1024_S6144x1024_1_0_0_1_n_n none a0 a2) (broadcastInDim S6144x1024 ![0, 1] bcast_S1x1024_S6144x1024_0_1 (broadcastInDim S1x1024 ![1] bcast_S1024_S1x1024_1 a3)))

/-- The reference's result from the projected rows: ((F·Wc + bc) ∘ (U·Wu + bu))·Wr + br + T[bias], F the pair features. -/
def refOut (E : FVec Ideal S6144x1024 .f32) (a1 : FVec Ideal S49152x2048 .f32) (a4 : FVec Ideal S1024x4096 .f32) (a5 : FVec Ideal S4096 .f32)
    (a6 : FVec Ideal S2048x4096 .f32) (a7 : FVec Ideal S4096 .f32) (a8 : FVec Ideal S4096x51 .f32) (a9 : FVec Ideal S51 .f32)
    (a10 : FVec Ideal S22801x51 .f32) (a11 : (⟨S6144, .i32⟩ : BufTy).Contents (Elt Ideal))
    (a12 : (⟨S49152x2, .i32⟩ : BufTy).Contents (Elt Ideal)) : FVec Ideal S49152x51 .f32 :=
  addf (addf (Host.dotGeneral dot_S49152x4096_S4096x51_S49152x51_1_0_0_1_n_n none (mulf (addf (Host.dotGeneral dot_S49152x1024_S1024x4096_S49152x4096_1_0_0_1_n_n none (pairFeat E a12) a4) (broadcastInDim S49152x4096 ![0, 1] bcast_S1x4096_S49152x4096_0_1 (broadcastInDim S1x4096 ![1] bcast_S4096_S1x4096_1 a5))) (addf (Host.dotGeneral dot_S49152x2048_S2048x4096_S49152x4096_1_0_0_1_n_n none a1 a6) (broadcastInDim S49152x4096 ![0, 1] bcast_S1x4096_S49152x4096_0_1 (broadcastInDim S1x4096 ![1] bcast_S4096_S1x4096_1 a7)))) a8) (broadcastInDim S49152x51 ![0, 1] bcast_S1x51_S49152x51_0_1 (broadcastInDim S1x51 ![1] bcast_S51_S1x51_1 a9))) (Host.gather gather_S22801x51_S49152x1_S49152x51_1_0_n_n_0_1_151 a10 (biasIdx a11 a12))

set_option maxHeartbeats 4000000 in
/-- The reference's composed term is these functions of the argument arrays. -/
theorem res_eq (m : (ℓ : Loc nD τ sig) → Buf (Elt Ideal) ℓ) (c : Dev nD) :
    Cert.ReferenceIdeal.Value.res_main_v69 (F := Ideal) m c
      = refOut (projRef (m ((c.tc : Thread nD τ).loc main_arg0)) (m ((c.tc : Thread nD τ).loc main_arg2)) (m ((c.tc : Thread nD τ).loc main_arg3)))
          (m ((c.tc : Thread nD τ).loc main_arg1)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v69 refOut projRef pairFeat biasIdx headIdx tailIdx
  rfl

end Cert.ReferenceIdeal.Shared

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.RefRead.lean ====
/-
  The reference's result read at an entry.

  Entry (r, q) of ((F·Wc + bc) ∘ (U·Wu + bu))·Wr + br + T[bias] is the sum over the 4096 gate columns k of
  (Σ_j F(r,j)·Wc(j,k) + bc(k)) · (Σ_j U(r,j)·Wu(j,k) + bu(k)) times Wr(k, q), plus br(q), plus the looked-up table
  entry. The outer product and the three bias broadcasts are opened; the two inner products and the lookup stay as they
  are, to be met by the kernel's own.
-/
import proofs.«163864_j16269336118078_2_alg».proof.Proof.SharedChain
import proofs.«163864_j16269336118078_2_alg».proof.Proof.LibHostReads
import Idealize.ShloMosaic.Lib.ValueIdx

set_option maxRecDepth 16384

noncomputable section

open scoped BigOperators

namespace Cert.ReferenceIdeal.Shared

open Cert.ReferenceIdeal Cert.ReferenceIdeal.Gen Idealize.ShloMosaic Idealize.ShloMosaic.ValueIdx

/-- The reference's gate at (r, k). -/
def refGate (E : FVec Ideal S6144x1024 .f32) (a1 : FVec Ideal S49152x2048 .f32) (a4 : FVec Ideal S1024x4096 .f32) (a5 : FVec Ideal S4096 .f32)
    (a6 : FVec Ideal S2048x4096 .f32) (a7 : FVec Ideal S4096 .f32) (a12 : (⟨S49152x2, .i32⟩ : BufTy).Contents (Elt Ideal))
    (r : Fin 49152) (k : Fin 4096) : EReal :=
  (Host.dotGeneral dot_S49152x1024_S1024x4096_S49152x4096_1_0_0_1_n_n none (pairFeat E a12) a4 (ix2 r k) + a5 (ix1 k))
    * (Host.dotGeneral dot_S49152x2048_S2048x4096_S49152x4096_1_0_0_1_n_n none a1 a6 (ix2 r k) + a7 (ix1 k))

theorem refOut_apply (E : FVec Ideal S6144x1024 .f32) (a1 : FVec Ideal S49152x2048 .f32) (a4 : FVec Ideal S1024x4096 .f32) (a5 : FVec Ideal S4096 .f32)
    (a6 : FVec Ideal S2048x4096 .f32) (a7 : FVec Ideal S4096 .f32) (a8 : FVec Ideal S4096x51 .f32) (a9 : FVec Ideal S51 .f32)
    (a10 : FVec Ideal S22801x51 .f32) (a11 : (⟨S6144, .i32⟩ : BufTy).Contents (Elt Ideal))
    (a12 : (⟨S49152x2, .i32⟩ : BufTy).Contents (Elt Ideal)) (r : Fin 49152) (q : Fin 51) :
    refOut E a1 a4 a5 a6 a7 a8 a9 a10 a11 a12 (ix2 r q)
      = (∑ k : Fin 4096, refGate E a1 a4 a5 a6 a7 a12 r k * a8 (ix2 k q)) + a9 (ix1 q)
        + Host.gather gather_S22801x51_S49152x1_S49152x51_1_0_n_n_0_1_151 a10 (biasIdx a11 a12) (ix2 r q) := by
  unfold refOut
  rw [addf_apply, addf_apply,
    Cert.LibHostReads.dot_apply dot_S49152x4096_S4096x51_S49152x51_1_0_0_1_n_n rfl _ a8 r q,
    Cert.LibHostReads.rowBias_apply (by decide) bcast_S51_S1x51_1 bcast_S1x51_S49152x51_0_1 a9 r q]
  refine congrArg (fun z => z + a9 (ix1 q) + Host.gather gather_S22801x51_S49152x1_S49152x51_1_0_n_n_0_1_151 a10 (biasIdx a11 a12) (ix2 r q)) ?_
  refine Finset.sum_congr rfl fun k _ => ?_
  rw [mulf_apply, addf_apply, addf_apply,
    Cert.LibHostReads.rowBias_apply (by decide) bcast_S4096_S1x4096_1 bcast_S1x4096_S49152x4096_0_1 a5 r k,
    Cert.LibHostReads.rowBias_apply (by decide) bcast_S4096_S1x4096_1 bcast_S1x4096_S49152x4096_0_1 a7 r k]
  rfl

end Cert.ReferenceIdeal.Shared

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.Region0.lean ====
/-
  The first launched body: one block of 1024 rows per grid point.

  Grid point t reads rows 1024·t … 1024·t + 1023 of the row matrix X (6144 × 512), the whole weight W (512 × 1024) and
  the bias row b (1 × 1024), and writes rows 1024·t … of the output: entry (a, q) of its block is the product of row a of
  the block of X with column q of W, accumulated from zero, plus b(q). A row of a product depends on that row of the left
  factor alone, so the block is the same rows of the whole product X·W plus the bias, and the six blocks tile the output:
  the output array after the launch is X·W + b, row by row.
-/
import proofs.«163864_j16269336118078_2_alg».proof.Proof.Gen.KernelIdeal.Frame
import proofs.«163864_j16269336118078_2_alg».proof.Proof.LibRowBlockDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PostEmb

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- X·W + b at the extended reals: entry (p, q) is the whole product's entry plus the bias of column q. -/
def proj (X : FVec Ideal S6144x512 .bf16) (W : FVec Ideal S512x1024 .bf16) (b : FVec Ideal S1x1024 .f32) :
    S6144x1024.Idx → EReal :=
  fun i => Host.dotGeneral (DotDims.plain 6144 512 1024) none X W i
    + b (ix2 (0 : Fin 1) (⟨(i 1).val, idx2_lt1 i⟩ : Fin 1024))

/-- Entry (a, q) of what a grid point stores: the block product accumulated from zero, plus the bias of column q
    (the casts between formats and between equal shapes change nothing). -/
theorem pay_apply (x0 : Vec Ideal S1024x512 .bf16) (x1 : Vec Ideal S512x1024 .bf16) (x2 : Vec Ideal S1x1024 .f32)
    (a q : Fin 1024) :
    k0_pay1 x0 x1 x2 (ix2 a q)
      = matmul (φ₁ := .bf16) (φ₂ := .bf16) (DotDims.plain 1024 512 1024) none x0 x1
          (constant (F := Ideal) ⟨2, ![1024, 1024]⟩ .f32 0x00000000#32) (ix2 a q)
        + x2 (ix2 (0 : Fin 1) q) := by
  unfold k0_pay1
  rw [shapeCast_self, shapeCast_self, shapeCast_self]
  show (matmul (φ₁ := .bf16) (φ₂ := .bf16) dot_S1024x512_S512x1024_S1024x1024_1_0_0_1_n_n none x0 x1
        (constant (F := Ideal) S1024x1024 .f32 0x00000000#32)) (ix2 a q)
      + broadcastTo S1024x1024 (x2 : FVec Ideal S1x1024 .f32) broadcasts_S1x1024_S1024x1024 (ix2 a q) = _
  rw [broadcastTo_apply x2 broadcasts_S1x1024_S1024x1024 (ix2 a q) (ix2 (0 : Fin 1) q) (fun ax => by
    match ax with
    | ⟨0, _⟩ => rfl
    | ⟨1, _⟩ => rfl)]
  rfl

/-- A block whose rows are the rows `row a` of X, beside the whole W and the whole bias row, stores the rows `row a` of
    X·W + b. -/
theorem block_entry (x0 : Vec Ideal S1024x512 .bf16) (x1 : Vec Ideal S512x1024 .bf16) (x2 : Vec Ideal S1x1024 .f32)
    (X : FVec Ideal S6144x512 .bf16) (W : FVec Ideal S512x1024 .bf16) (b : FVec Ideal S1x1024 .f32) (row : Fin 1024 → Fin 6144)
    (h0 : ∀ a k, x0 (ix2 a k) = X (ix2 (row a) k)) (h1 : ∀ k q, x1 (ix2 k q) = W (ix2 k q))
    (h2 : ∀ q, x2 (ix2 (0 : Fin 1) q) = b (ix2 (0 : Fin 1) q)) (a q : Fin 1024) :
    k0_pay1 x0 x1 x2 (ix2 a q) = proj X W b (ix2 (row a) q) := by
  rw [pay_apply, Cert.LibRowBlockDot.matmul_rowBlock_apply none none X W x0 x1 row h0 h1 a q, h2]
  rfl

theorem hz : (![0, 0] : Fin 2 → Nat) = fun _ => 0 := funext fun a => by fin_cases a <;> rfl

/-- The printed block numbers, decided over the six grid points: the rows' and the output's block is the point's own
    number along the rows, every other block number is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What grid point t writes back is block t of X·W + b of the arrays the body is entered with. -/
theorem flushed_eq (c : Dev nD) (t : Fin cfg0.N) :
    (dat0 V c).flushed 3 t = ((cfg0.win 3).blk t).view.read (Elt Ideal) (proj (V c main_v0) (V c main_v1) (V c main_v2)) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x1024) hz, View.ld_unit_zero (S := S1x1024) hz]
  obtain ⟨e0, e1, e2, e3, e4, e5, e6, e7⟩ := idx_facts t
  have ht : t.val < 6 := by have h : t.val < grid0.N := t.isLt; rw [N_0] at h; exact h
  funext j
  obtain ⟨a, q, rfl⟩ : ∃ (a q : Fin 1024), j = ix2 a q := ⟨j 0, j 1, eq_ix2 j⟩
  show k0_pay1 (iblk0 V c 0 t) (iblk0 V c 1 t) (iblk0 V c 2 t) (ix2 a q)
    = proj (V c main_v0) (V c main_v1) (V c main_v2) (((cfg0.win 3).blk t).view.emb (ix2 a q))
  have hemb : ((cfg0.win 3).blk t).view.emb (ix2 a q) = ix2 (⟨t.val * 1024 + a.val, by omega⟩ : Fin 6144) q := by
    funext ax; apply Fin.ext
    match ax with
    | ⟨0, _⟩ => show win0_3.index t (0 : Fin 2) * 1024 + 1 * a.val = t.val * 1024 + a.val; omega
    | ⟨1, _⟩ => show win0_3.index t (1 : Fin 2) * 1024 + 1 * q.val = q.val; omega
  rw [hemb]
  refine block_entry (iblk0 V c 0 t) (iblk0 V c 1 t) (iblk0 V c 2 t) (V c main_v0) (V c main_v1) (V c main_v2)
    (fun a => ⟨t.val * 1024 + a.val, by omega⟩) ?_ ?_ ?_ a q
  · intro a k
    show V c (Pipeline.arrRef spec0 0) (((cfg0.win 0).blk t).view.emb (ix2 a k)) = V c main_v0 (ix2 _ k)
    refine congrArg (V c main_v0) ?_
    funext ax; apply Fin.ext
    match ax with
    | ⟨0, _⟩ => show win0_0.index t (0 : Fin 2) * 1024 + 1 * a.val = t.val * 1024 + a.val; omega
    | ⟨1, _⟩ => show win0_0.index t (1 : Fin 2) * 512 + 1 * k.val = k.val; omega
  · intro k q
    show V c (Pipeline.arrRef spec0 1) (((cfg0.win 1).blk t).view.emb (ix2 k q)) = V c main_v1 (ix2 k q)
    refine congrArg (V c main_v1) ?_
    funext ax; apply Fin.ext
    match ax with
    | ⟨0, _⟩ => show win0_1.index t (0 : Fin 2) * 512 + 1 * k.val = k.val; omega
    | ⟨1, _⟩ => show win0_1.index t (1 : Fin 2) * 1024 + 1 * q.val = q.val; omega
  · intro q
    show V c (Pipeline.arrRef spec0 2) (((cfg0.win 2).blk t).view.emb (ix2 (0 : Fin 1) q)) = V c main_v2 (ix2 (0 : Fin 1) q)
    refine congrArg (V c main_v2) ?_
    funext ax; apply Fin.ext
    match ax with
    | ⟨0, _⟩ => show win0_2.index t (0 : Fin 2) * 1 + 1 * 0 = 0; omega
    | ⟨1, _⟩ => show win0_2.index t (1 : Fin 2) * 1024 + 1 * q.val = q.val; omega

/-- An index of the output array is in point t's block iff each coordinate is in the block's range on its axis. -/
theorem mem_blk (t : Fin cfg0.N) (i : S6144x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every row of the output is in the block of the grid point numbered by the row's block of 1024. -/
theorem cover (i : S6144x1024.Idx) : ∃ t : Fin cfg0.N, (cfg0.win 3).flush t = true ∧ i ∈ ((cfg0.win 3).blk t).view.set := by
  have hi0 : (i 0).val < 6144 := (i 0).isLt
  have hi1 : (i 1).val < 1024 := (i 1).isLt
  have hN : grid0.N = 6 := N_0
  have hlt : (i 0).val / 1024 < grid0.N := by omega
  obtain ⟨e0, e1, e2, e3, e4, e5, e6, e7⟩ := idx_facts ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    have e6' : win0_3.index ⟨(i 0).val / 1024, hlt⟩ (0 : Fin 2) = (i 0).val / 1024 := e6
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    omega

/-- THE OUTPUT ARRAY after the first launch: X·W + b of the arrays the body is entered with. -/
theorem final (c : Dev nD) : (dat0 V c).arrAt 3 cfg0.N = proj (V c main_v0) (V c main_v1) (V c main_v2) :=
  (dat0 V c).arrAt_eq_of_cover 3 _ (fun t _ => flushed_eq V c t) cover

end

end Cert.KernelIdeal.PostEmb

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.Region1.lean ====
/-
  The second launched body: one block of 256 pairs per grid point.

  Grid point t reads rows 256·t … 256·t + 255 of the pair features F (49152 × 1024), of the union features U (49152 × 2048)
  and of the table rows T (49152 × 128), and the whole of Wc, bc, Wu, bu, Wr, br. For a pair r and a gate column k put
  gate(r, k) = (Σ_j F(r,j)·Wc(j,k) + bc(k)) · (Σ_j U(r,j)·Wu(j,k) + bu(k)). Entry (a, q) of the block it writes is
  Σ_k gate(row, k)·Wr(k, q) + br(q) + T(row, q), row = 256·t + a: the two inner products are row blocks of the whole
  products, and the outer product of the block of gates with Wr is the sum over the 4096 gate columns. The 192 blocks tile
  the output array.
-/
import proofs.«163864_j16269336118078_2_alg».proof.Proof.Gen.KernelIdeal.Frame
import proofs.«163864_j16269336118078_2_alg».proof.Proof.LibRowBlockDot
import proofs.«163864_j16269336118078_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MainBody

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The gate: (F·Wc + bc) times (U·Wu + bu), entry by entry. -/
def gate (Fe : FVec Ideal S49152x1024 .bf16) (U : FVec Ideal S49152x2048 .bf16) (Wc : FVec Ideal S1024x4096 .bf16)
    (bc : FVec Ideal S1x4096 .f32) (Wu : FVec Ideal S2048x4096 .bf16) (bu : FVec Ideal S1x4096 .f32) (r : Fin 49152) (k : Fin 4096) : EReal :=
  (Host.dotGeneral (DotDims.plain 49152 1024 4096) none Fe Wc (ix2 r k) + bc (ix2 (0 : Fin 1) k))
    * (Host.dotGeneral (DotDims.plain 49152 2048 4096) none U Wu (ix2 r k) + bu (ix2 (0 : Fin 1) k))

/-- The second body's output as one function of its nine input arrays: gate·Wr + br + T. -/
def mainOut (Fe : FVec Ideal S49152x1024 .bf16) (U : FVec Ideal S49152x2048 .bf16) (T : FVec Ideal S49152x128 .f32)
    (Wc : FVec Ideal S1024x4096 .bf16) (bc : FVec Ideal S1x4096 .f32) (Wu : FVec Ideal S2048x4096 .bf16) (bu : FVec Ideal S1x4096 .f32)
    (Wr : FVec Ideal S4096x128 .bf16) (br : FVec Ideal S1x128 .f32) : S49152x128.Idx → EReal :=
  fun i => (∑ k : Fin 4096, gate Fe U Wc bc Wu bu ⟨(i 0).val, idx2_lt0 i⟩ k * Wr (ix2 k (⟨(i 1).val, idx2_lt1 i⟩ : Fin 128)))
    + br (ix2 (0 : Fin 1) (⟨(i 1).val, idx2_lt1 i⟩ : Fin 128)) + T i

/-- The block of gates a grid point forms from its blocks of F and U and the whole weights and biases. -/
def gateBlk (v0 : Vec Ideal S256x1024 .bf16) (v2 : Vec Ideal S256x2048 .bf16) (v4 : Vec Ideal S1024x4096 .bf16) (v7 : Vec Ideal S1x4096 .f32)
    (v11 : Vec Ideal S2048x4096 .bf16) (v14 : Vec Ideal S1x4096 .f32) : FVec Ideal S256x4096 .f32 :=
  mulf (addf (matmul (φ₁ := .bf16) (φ₂ := .bf16) dot_S256x1024_S1024x4096_S256x4096_1_0_0_1_n_n none v0 v4 (constant (F := Ideal) S256x4096 .f32 0x00000000#32))
      (broadcastTo S256x4096 (v7 : FVec Ideal S1x4096 .f32) broadcasts_S1x4096_S256x4096))
    (addf (matmul (φ₁ := .bf16) (φ₂ := .bf16) dot_S256x2048_S2048x4096_S256x4096_1_0_0_1_n_n none v2 v11 (constant (F := Ideal) S256x4096 .f32 0x00000000#32))
      (broadcastTo S256x4096 (v14 : FVec Ideal S1x4096 .f32) broadcasts_S1x4096_S256x4096))

/-- A gate of the block: the two block products, each plus its bias, multiplied. -/
theorem gateBlk_apply (v0 : Vec Ideal S256x1024 .bf16) (v2 : Vec Ideal S256x2048 .bf16) (v4 : Vec Ideal S1024x4096 .bf16) (v7 : Vec Ideal S1x4096 .f32)
    (v11 : Vec Ideal S2048x4096 .bf16) (v14 : Vec Ideal S1x4096 .f32) (a : Fin 256) (k : Fin 4096) :
    gateBlk v0 v2 v4 v7 v11 v14 (ix2 a k)
      = (matmul (φ₁ := .bf16) (φ₂ := .bf16) (DotDims.plain 256 1024 4096) none v0 v4 (constant (F := Ideal) ⟨2, ![256, 4096]⟩ .f32 0x00000000#32) (ix2 a k)
          + v7 (ix2 (0 : Fin 1) k))
        * (matmul (φ₁ := .bf16) (φ₂ := .bf16) (DotDims.plain 256 2048 4096) none v2 v11 (constant (F := Ideal) ⟨2, ![256, 4096]⟩ .f32 0x00000000#32) (ix2 a k)
          + v14 (ix2 (0 : Fin 1) k)) := by
  unfold gateBlk
  rw [mulf_apply, addf_apply, addf_apply,
    broadcastTo_apply (v7 : FVec Ideal S1x4096 .f32) broadcasts_S1x4096_S256x4096 (ix2 a k) (ix2 (0 : Fin 1) k) (fun ax => by
      match ax with
      | ⟨0, _⟩ => rfl
      | ⟨1, _⟩ => rfl),
    broadcastTo_apply (v14 : FVec Ideal S1x4096 .f32) broadcasts_S1x4096_S256x4096 (ix2 a k) (ix2 (0 : Fin 1) k) (fun ax => by
      match ax with
      | ⟨0, _⟩ => rfl
      | ⟨1, _⟩ => rfl)]
  rfl

/-- Entry (a, q) of what a grid point stores: the sum over the gate columns of gate times weight, plus the bias of
    column q, plus the table entry (the casts between formats and between equal shapes change nothing). -/
theorem pay_apply (v0 : Vec Ideal S256x1024 .bf16) (v2 : Vec Ideal S256x2048 .bf16) (v4 : Vec Ideal S1024x4096 .bf16) (v7 : Vec Ideal S1x4096 .f32)
    (v11 : Vec Ideal S2048x4096 .bf16) (v14 : Vec Ideal S1x4096 .f32) (v20 : Vec Ideal S4096x128 .bf16) (v23 : Vec Ideal S1x128 .f32)
    (v27 : Vec Ideal S256x128 .f32) (a : Fin 256) (q : Fin 128) :
    k1_pay1 v0 v2 v4 v7 v11 v14 v20 v23 v27 (ix2 a q)
      = (∑ k : Fin 4096, gateBlk v0 v2 v4 v7 v11 v14 (ix2 a k) * v20 (ix2 k q)) + v23 (ix2 (0 : Fin 1) q) + v27 (ix2 a q) := by
  unfold k1_pay1
  rw [shapeCast_self, shapeCast_self, shapeCast_self, shapeCast_self, shapeCast_self, shapeCast_self, shapeCast_self, shapeCast_self, shapeCast_self]
  show (matmul (φ₁ := .bf16) (φ₂ := .bf16) dot_S256x4096_S4096x128_S256x128_1_0_0_1_n_n none
        (truncf .bf16 (gateBlk v0 v2 v4 v7 v11 v14) bitsLt_bf16_f32) v20 (constant (F := Ideal) S256x128 .f32 0x00000000#32)) (ix2 a q)
      + broadcastTo S256x128 (v23 : FVec Ideal S1x128 .f32) broadcasts_S1x128_S256x128 (ix2 a q) + v27 (ix2 a q) = _
  rw [broadcastTo_apply (v23 : FVec Ideal S1x128 .f32) broadcasts_S1x128_S256x128 (ix2 a q) (ix2 (0 : Fin 1) q) (fun ax => by
    match ax with
    | ⟨0, _⟩ => rfl
    | ⟨1, _⟩ => rfl)]
  refine congrArg (fun z => z + v23 (ix2 (0 : Fin 1) q) + v27 (ix2 a q)) ?_
  exact Cert.LibPlainMatmul.matmul_plain_zero_apply (φ₁ := .bf16) (φ₂ := .bf16) none (truncf .bf16 (gateBlk v0 v2 v4 v7 v11 v14) bitsLt_bf16_f32) v20 a q

/-- A block whose rows of F, U and T are the rows `row a` of the whole arrays, beside the whole weights and biases, stores
    the rows `row a` of gate·Wr + br + T. -/
theorem block_entry (v0 : Vec Ideal S256x1024 .bf16) (v2 : Vec Ideal S256x2048 .bf16) (v4 : Vec Ideal S1024x4096 .bf16) (v7 : Vec Ideal S1x4096 .f32)
    (v11 : Vec Ideal S2048x4096 .bf16) (v14 : Vec Ideal S1x4096 .f32) (v20 : Vec Ideal S4096x128 .bf16) (v23 : Vec Ideal S1x128 .f32)
    (v27 : Vec Ideal S256x128 .f32)
    (Fe : FVec Ideal S49152x1024 .bf16) (U : FVec Ideal S49152x2048 .bf16) (T : FVec Ideal S49152x128 .f32)
    (Wc : FVec Ideal S1024x4096 .bf16) (bc : FVec Ideal S1x4096 .f32) (Wu : FVec Ideal S2048x4096 .bf16) (bu : FVec Ideal S1x4096 .f32)
    (Wr : FVec Ideal S4096x128 .bf16) (br : FVec Ideal S1x128 .f32) (row : Fin 256 → Fin 49152)
    (h0 : ∀ a j, v0 (ix2 a j) = Fe (ix2 (row a) j)) (h1 : ∀ a j, v2 (ix2 a j) = U (ix2 (row a) j))
    (h2 : ∀ a q, v27 (ix2 a q) = T (ix2 (row a) q))
    (h3 : ∀ j k, v4 (ix2 j k) = Wc (ix2 j k)) (h4 : ∀ k, v7 (ix2 (0 : Fin 1) k) = bc (ix2 (0 : Fin 1) k))
    (h5 : ∀ j k, v11 (ix2 j k) = Wu (ix2 j k)) (h6 : ∀ k, v14 (ix2 (0 : Fin 1) k) = bu (ix2 (0 : Fin 1) k))
    (h7 : ∀ k q, v20 (ix2 k q) = Wr (ix2 k q)) (h8 : ∀ q, v23 (ix2 (0 : Fin 1) q) = br (ix2 (0 : Fin 1) q))
    (a : Fin 256) (q : Fin 128) :
    k1_pay1 v0 v2 v4 v7 v11 v14 v20 v23 v27 (ix2 a q) = mainOut Fe U T Wc bc Wu bu Wr br (ix2 (row a) q) := by
  rw [pay_apply, h8, h2]
  show _ = (∑ k : Fin 4096, gate Fe U Wc bc Wu bu (row a) k * Wr (ix2 k q)) + br (ix2 (0 : Fin 1) q) + T (ix2 (row a) q)
  refine congrArg (fun z => z + br (ix2 (0 : Fin 1) q) + T (ix2 (row a) q)) ?_
  refine Finset.sum_congr rfl fun k _ => ?_
  rw [gateBlk_apply, h7, h4, h6,
    Cert.LibRowBlockDot.matmul_rowBlock_apply none none Fe Wc v0 v4 row h0 h3 a k,
    Cert.LibRowBlockDot.matmul_rowBlock_apply none none U Wu v2 v11 row h1 h5 a k]
  rfl

theorem hz : (![0, 0] : Fin 2 → Nat) = fun _ => 0 := funext fun a => by fin_cases a <;> rfl

/-- The printed block numbers, decided over the 192 grid points: the blocks of F, U, T and of the output are the point's
    own number along the rows; every other block number is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

section
variable (V : (c : Dev nD) → (b : Ref sig .tc) → Buf (Elt Ideal) ((c : Thread nD τ).loc b))

set_option maxHeartbeats 4000000 in
/-- What grid point t writes back is block t of gate·Wr + br + T of the arrays the body is entered with. -/
theorem flushed_eq (c : Dev nD) (t : Fin cfg1.N) :
    (dat1 V c).flushed 9 t = ((cfg1.win 9).blk t).view.read (Elt Ideal)
      (mainOut (V c main_v27) (V c main_v55) (V c main_v54) (V c main_v56) (V c main_v59) (V c main_v57) (V c main_v60) (V c main_v58) (V c main_v61)) := by
  show (cfg1.win 9).cut (grid1.coords t) ((dat1 V c).after 9 t) = _
  rw [after1_9]
  unfold out1_9
  rw [View.canon_unit_zero hz]
  simp only [View.ld_unit_zero (S := S256x1024) hz, View.ld_unit_zero (S := S256x2048) hz, View.ld_unit_zero (S := S256x128) hz,
    View.ld_unit_zero (S := S1024x4096) hz, View.ld_unit_zero (S := S1x4096) hz, View.ld_unit_zero (S := S2048x4096) hz,
    View.ld_unit_zero (S := S4096x128) hz, View.ld_unit_zero (S := S1x128) hz]
  obtain ⟨e00, e01, e10, e11, e20, e21, e30, e31, e40, e41, e50, e51, e60, e61, e70, e71, e80, e81, e90, e91⟩ := idx_facts t
  have ht : t.val < 192 := by have h : t.val < grid1.N := t.isLt; rw [N_1] at h; exact h
  funext j
  obtain ⟨a, q, rfl⟩ : ∃ (a : Fin 256) (q : Fin 128), j = ix2 a q := ⟨j 0, j 1, eq_ix2 j⟩
  show k1_pay1 (iblk1 V c 0 t) (iblk1 V c 1 t) (iblk1 V c 3 t) (iblk1 V c 4 t) (iblk1 V c 5 t) (iblk1 V c 6 t) (iblk1 V c 7 t) (iblk1 V c 8 t) (iblk1 V c 2 t) (ix2 a q)
    = mainOut (V c main_v27) (V c main_v55) (V c main_v54) (V c main_v56) (V c main_v59) (V c main_v57) (V c main_v60) (V c main_v58) (V c main_v61)
        (((cfg1.win 9).blk t).view.emb (ix2 a q))
  have hemb : ((cfg1.win 9).blk t).view.emb (ix2 a q) = ix2 (⟨t.val * 256 + a.val, by omega⟩ : Fin 49152) q := by
    funext ax; apply Fin.ext
    match ax with
    | ⟨0, _⟩ => show win1_9.index t (0 : Fin 2) * 256 + 1 * a.val = t.val * 256 + a.val; omega
    | ⟨1, _⟩ => show win1_9.index t (1 : Fin 2) * 128 + 1 * q.val = q.val; omega
  rw [hemb]
  refine block_entry (iblk1 V c 0 t) (iblk1 V c 1 t) (iblk1 V c 3 t) (iblk1 V c 4 t) (iblk1 V c 5 t) (iblk1 V c 6 t) (iblk1 V c 7 t) (iblk1 V c 8 t) (iblk1 V c 2 t)
    (V c main_v27) (V c main_v55) (V c main_v54) (V c main_v56) (V c main_v59) (V c main_v57) (V c main_v60) (V c main_v58) (V c main_v61)
    (fun a => ⟨t.val * 256 + a.val, by omega⟩) ?_ ?_ ?_ ?_ ?_ ?_ ?_ ?_ ?_ a q
  · intro a j
    show V c (Pipeline.arrRef spec1 0) (((cfg1.win 0).blk t).view.emb (ix2 a j)) = V c main_v27 (ix2 _ j)
    refine congrArg (V c main_v27) ?_
    funext ax; apply Fin.ext
    match ax with
    | ⟨0, _⟩ => show win1_0.index t (0 : Fin 2) * 256 + 1 * a.val = t.val * 256 + a.val; omega
    | ⟨1, _⟩ => show win1_0.index t (1 : Fin 2) * 1024 + 1 * j.val = j.val; omega
  · intro a j
    show V c (Pipeline.arrRef spec1 1) (((cfg1.win 1).blk t).view.emb (ix2 a j)) = V c main_v55 (ix2 _ j)
    refine congrArg (V c main_v55) ?_
    funext ax; apply Fin.ext
    match ax with
    | ⟨0, _⟩ => show win1_1.index t (0 : Fin 2) * 256 + 1 * a.val = t.val * 256 + a.val; omega
    | ⟨1, _⟩ => show win1_1.index t (1 : Fin 2) * 2048 + 1 * j.val = j.val; omega
  · intro a q
    show V c (Pipeline.arrRef spec1 2) (((cfg1.win 2).blk t).view.emb (ix2 a q)) = V c main_v54 (ix2 _ q)
    refine congrArg (V c main_v54) ?_
    funext ax; apply Fin.ext
    match ax with
    | ⟨0, _⟩ => show win1_2.index t (0 : Fin 2) * 256 + 1 * a.val = t.val * 256 + a.val; omega
    | ⟨1, _⟩ => show win1_2.index t (1 : Fin 2) * 128 + 1 * q.val = q.val; omega
  · intro j k
    show V c (Pipeline.arrRef spec1 3) (((cfg1.win 3).blk t).view.emb (ix2 j k)) = V c main_v56 (ix2 j k)
    refine congrArg (V c main_v56) ?_
    funext ax; apply Fin.ext
    match ax with
    | ⟨0, _⟩ => show win1_3.index t (0 : Fin 2) * 1024 + 1 * j.val = j.val; omega
    | ⟨1, _⟩ => show win1_3.index t (1 : Fin 2) * 4096 + 1 * k.val = k.val; omega
  · intro k
    show V c (Pipeline.arrRef spec1 4) (((cfg1.win 4).blk t).view.emb (ix2 (0 : Fin 1) k)) = V c main_v59 (ix2 (0 : Fin 1) k)
    refine congrArg (V c main_v59) ?_
    funext ax; apply Fin.ext
    match ax with
    | ⟨0, _⟩ => show win1_4.index t (0 : Fin 2) * 1 + 1 * 0 = 0; omega
    | ⟨1, _⟩ => show win1_4.index t (1 : Fin 2) * 4096 + 1 * k.val = k.val; omega
  · intro j k
    show V c (Pipeline.arrRef spec1 5) (((cfg1.win 5).blk t).view.emb (ix2 j k)) = V c main_v57 (ix2 j k)
    refine congrArg (V c main_v57) ?_
    funext ax; apply Fin.ext
    match ax with
    | ⟨0, _⟩ => show win1_5.index t (0 : Fin 2) * 2048 + 1 * j.val = j.val; omega
    | ⟨1, _⟩ => show win1_5.index t (1 : Fin 2) * 4096 + 1 * k.val = k.val; omega
  · intro k
    show V c (Pipeline.arrRef spec1 6) (((cfg1.win 6).blk t).view.emb (ix2 (0 : Fin 1) k)) = V c main_v60 (ix2 (0 : Fin 1) k)
    refine congrArg (V c main_v60) ?_
    funext ax; apply Fin.ext
    match ax with
    | ⟨0, _⟩ => show win1_6.index t (0 : Fin 2) * 1 + 1 * 0 = 0; omega
    | ⟨1, _⟩ => show win1_6.index t (1 : Fin 2) * 4096 + 1 * k.val = k.val; omega
  · intro k q
    show V c (Pipeline.arrRef spec1 7) (((cfg1.win 7).blk t).view.emb (ix2 k q)) = V c main_v58 (ix2 k q)
    refine congrArg (V c main_v58) ?_
    funext ax; apply Fin.ext
    match ax with
    | ⟨0, _⟩ => show win1_7.index t (0 : Fin 2) * 4096 + 1 * k.val = k.val; omega
    | ⟨1, _⟩ => show win1_7.index t (1 : Fin 2) * 128 + 1 * q.val = q.val; omega
  · intro q
    show V c (Pipeline.arrRef spec1 8) (((cfg1.win 8).blk t).view.emb (ix2 (0 : Fin 1) q)) = V c main_v61 (ix2 (0 : Fin 1) q)
    refine congrArg (V c main_v61) ?_
    funext ax; apply Fin.ext
    match ax with
    | ⟨0, _⟩ => show win1_8.index t (0 : Fin 2) * 1 + 1 * 0 = 0; omega
    | ⟨1, _⟩ => show win1_8.index t (1 : Fin 2) * 128 + 1 * q.val = q.val; omega

/-- An index of the output array is in point t's block iff each coordinate is in the block's range on its axis. -/
theorem mem_blk (t : Fin cfg1.N) (i : S49152x128.Idx) :
    i ∈ ((cfg1.win 9).blk t).view.set ↔ ∀ a : Fin 2, win1_9.index t a * S256x128.size a ≤ (i a).val
      ∧ (i a).val < win1_9.index t a * S256x128.size a + S256x128.size a := by
  show i ∈ ((View.whole main_v62).slice (win1_9.rect t)).set ↔ _
  rw [View.set_slice_whole, Rect.mem_set_unit]
  exact Iff.rfl

/-- Every row of the output is in the block of the grid point numbered by the row's block of 256. -/
theorem cover (i : S49152x128.Idx) : ∃ t : Fin cfg1.N, (cfg1.win 9).flush t = true ∧ i ∈ ((cfg1.win 9).blk t).view.set := by
  have hi0 : (i 0).val < 49152 := (i 0).isLt
  have hi1 : (i 1).val < 128 := (i 1).isLt
  have hN : grid1.N = 192 := N_1
  have hlt : (i 0).val / 256 < grid1.N := by omega
  obtain ⟨e00, e01, e10, e11, e20, e21, e30, e31, e40, e41, e50, e51, e60, e61, e70, e71, e80, e81, e90, e91⟩ := idx_facts ⟨(i 0).val / 256, hlt⟩
  refine ⟨⟨(i 0).val / 256, hlt⟩, flush1_9 _, ?_⟩
  rw [mem_blk]
  intro a
  match a with
  | ⟨0, _⟩ =>
    show win1_9.index ⟨(i 0).val / 256, hlt⟩ (0 : Fin 2) * 256 ≤ (i 0).val
      ∧ (i 0).val < win1_9.index ⟨(i 0).val / 256, hlt⟩ (0 : Fin 2) * 256 + 256
    have e90' : win1_9.index ⟨(i 0).val / 256, hlt⟩ (0 : Fin 2) = (i 0).val / 256 := e90
    omega
  | ⟨1, _⟩ =>
    show win1_9.index ⟨(i 0).val / 256, hlt⟩ (1 : Fin 2) * 128 ≤ (i 1).val
      ∧ (i 1).val < win1_9.index ⟨(i 0).val / 256, hlt⟩ (1 : Fin 2) * 128 + 128
    omega

/-- THE OUTPUT ARRAY after the second launch: gate·Wr + br + T of the arrays the body is entered with. -/
theorem final (c : Dev nD) : (dat1 V c).arrAt 9 cfg1.N
    = mainOut (V c main_v27) (V c main_v55) (V c main_v54) (V c main_v56) (V c main_v59) (V c main_v57) (V c main_v60) (V c main_v58) (V c main_v61) :=
  (dat1 V c).arrAt_eq_of_cover 9 _ (fun t _ => flushed_eq V c t) cover

end

end Cert.KernelIdeal.MainBody

end
-- ==== Proof.HostA.lean ====
/-
  The arrays the first launched body is entered with, the argument arrays as the second stretch of operations finds them,
  and the returned array as a slice of the second body's output.

  Before the first body the program only changes formats (the identity on the extended reals) and views the bias vector
  as one row. No operation of the first stretch and no write-back of the first body touches an argument array. After the
  second body the program keeps the first 51 of its output's 128 columns.
-/
import proofs.«163864_j16269336118078_2_alg».proof.Proof.Gen.KernelIdeal.Frame
import Idealize.ShloMosaic.Lib.StableHlo.Run
import Idealize.ShloMosaic.PureOps.Ideal

set_option maxRecDepth 16384

noncomputable section

namespace Cert.KernelIdeal.HostA

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The row matrix the first body reads: the first argument, its format changed. -/
theorem entry_rows (c : Dev nD) : V1 m ρ c main_v0
    = truncf (F := Ideal) (s := S6144x512) (φ := .f32) .bf16 (m ((c.tc : Thread nD τ).loc main_arg0)) bitsLt_bf16_f32 := by
  show W1 m ρ c (Proc.devRef .tc main_v0) = _
  dsimp only [W1, W0, hostOps0]; after_results; try rfl

/-- The weight the first body reads: the third argument, its format changed. -/
theorem entry_weight (c : Dev nD) : V1 m ρ c main_v1
    = truncf (F := Ideal) (s := S512x1024) (φ := .f32) .bf16 (m ((c.tc : Thread nD τ).loc main_arg2)) bitsLt_bf16_f32 := by
  show W1 m ρ c (Proc.devRef .tc main_v1) = _
  dsimp only [W1, W0, hostOps0]; after_results; try rfl

/-- The bias row the first body reads: the fourth argument viewed as one row. -/
theorem entry_bias (c : Dev nD) : (V1 m ρ c main_v2 : FVec Ideal S1x1024 .f32)
    = shapeCast S1x1024 (m ((c.tc : Thread nD τ).loc main_arg3) : FVec Ideal S1024 .f32) shapeCasts_S1024_S1x1024 := by
  show W1 m ρ c (Proc.devRef .tc main_v2) = _
  dsimp only [W1, W0, hostOps0]; after_results; try rfl

/-- Argument 1 is untouched up to the first body's exit. -/
theorem arg1_at2 (c : Dev nD) : W2 m ρ c (Proc.devRef .tc main_arg1) = m ((c.tc : Thread nD τ).loc main_arg1) :=
  (W2_of_ne m ρ c main_arg1 (by decide)).trans (by dsimp only [W1, W0, hostOps0]; after_results; try rfl)

/-- Argument 4 is untouched up to the first body's exit. -/
theorem arg4_at2 (c : Dev nD) : W2 m ρ c (Proc.devRef .tc main_arg4) = m ((c.tc : Thread nD τ).loc main_arg4) :=
  (W2_of_ne m ρ c main_arg4 (by decide)).trans (by dsimp only [W1, W0, hostOps0]; after_results; try rfl)

/-- Argument 5 is untouched up to the first body's exit. -/
theorem arg5_at2 (c : Dev nD) : W2 m ρ c (Proc.devRef .tc main_arg5) = m ((c.tc : Thread nD τ).loc main_arg5) :=
  (W2_of_ne m ρ c main_arg5 (by decide)).trans (by dsimp only [W1, W0, hostOps0]; after_results; try rfl)

/-- Argument 6 is untouched up to the first body's exit. -/
theorem arg6_at2 (c : Dev nD) : W2 m ρ c (Proc.devRef .tc main_arg6) = m ((c.tc : Thread nD τ).loc main_arg6) :=
  (W2_of_ne m ρ c main_arg6 (by decide)).trans (by dsimp only [W1, W0, hostOps0]; after_results; try rfl)

/-- Argument 7 is untouched up to the first body's exit. -/
theorem arg7_at2 (c : Dev nD) : W2 m ρ c (Proc.devRef .tc main_arg7) = m ((c.tc : Thread nD τ).loc main_arg7) :=
  (W2_of_ne m ρ c main_arg7 (by decide)).trans (by dsimp only [W1, W0, hostOps0]; after_results; try rfl)

/-- Argument 8 is untouched up to the first body's exit. -/
theorem arg8_at2 (c : Dev nD) : W2 m ρ c (Proc.devRef .tc main_arg8) = m ((c.tc : Thread nD τ).loc main_arg8) :=
  (W2_of_ne m ρ c main_arg8 (by decide)).trans (by dsimp only [W1, W0, hostOps0]; after_results; try rfl)

/-- Argument 9 is untouched up to the first body's exit. -/
theorem arg9_at2 (c : Dev nD) : W2 m ρ c (Proc.devRef .tc main_arg9) = m ((c.tc : Thread nD τ).loc main_arg9) :=
  (W2_of_ne m ρ c main_arg9 (by decide)).trans (by dsimp only [W1, W0, hostOps0]; after_results; try rfl)

/-- Argument 10 is untouched up to the first body's exit. -/
theorem arg10_at2 (c : Dev nD) : W2 m ρ c (Proc.devRef .tc main_arg10) = m ((c.tc : Thread nD τ).loc main_arg10) :=
  (W2_of_ne m ρ c main_arg10 (by decide)).trans (by dsimp only [W1, W0, hostOps0]; after_results; try rfl)

/-- Argument 11 is untouched up to the first body's exit. -/
theorem arg11_at2 (c : Dev nD) : W2 m ρ c (Proc.devRef .tc main_arg11) = m ((c.tc : Thread nD τ).loc main_arg11) :=
  (W2_of_ne m ρ c main_arg11 (by decide)).trans (by dsimp only [W1, W0, hostOps0]; after_results; try rfl)

/-- Argument 12 is untouched up to the first body's exit. -/
theorem arg12_at2 (c : Dev nD) : W2 m ρ c (Proc.devRef .tc main_arg12) = m ((c.tc : Thread nD τ).loc main_arg12) :=
  (W2_of_ne m ρ c main_arg12 (by decide)).trans (by dsimp only [W1, W0, hostOps0]; after_results; try rfl)

/-- The returned array: the first 51 columns of the second body's output array. -/
theorem result_slice (c : Dev nD) : W11 m ρ c (Proc.devRef .tc main_v63)
    = extractStridedSlice S49152x51 ![0, 0] (W10 m ρ c (Proc.devRef .tc main_v62)) slices_S49152x128_S49152x51_0_0 := by
  dsimp only [W11, hostOps2]; after_results; try rfl

end Cert.KernelIdeal.HostA

end
-- ==== Proof.HostB.lean ====
/-
  The pair features the second launched body is entered with.

  Between the two launches the program splits each projected row in its two halves, looks up the head half of row
  pair(r, 0) and the tail half of row pair(r, 1) for every pair r, and joins them: the pair-feature function of the
  projected rows as the first launch left them and of the pair table, an argument no operation has written.
-/
import proofs.«163864_j16269336118078_2_alg».proof.Proof.Gen.KernelIdeal.Frame
import proofs.«163864_j16269336118078_2_alg».proof.Proof.SharedChain
import Idealize.ShloMosaic.Lib.StableHlo.Run
import Idealize.ShloMosaic.PureOps.Ideal

set_option maxRecDepth 16384

noncomputable section

namespace Cert.KernelIdeal.HostB

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The pair table is untouched up to the first body's exit. -/
theorem pair_at2 (c : Dev nD) : W2 m ρ c (Proc.devRef .tc main_arg12) = m ((c.tc : Thread nD τ).loc main_arg12) :=
  (W2_of_ne m ρ c main_arg12 (by decide)).trans (by dsimp only [W1, W0, hostOps0]; after_results; try rfl)

set_option maxHeartbeats 4000000 in
/-- The second body's first input array is the pair features of the first body's output array. -/
theorem entry_feat (c : Dev nD) : V9 m ρ c main_v27
    = Cert.ReferenceIdeal.Shared.pairFeat (W2 m ρ c (Proc.devRef .tc main_v3)) (m ((c.tc : Thread nD τ).loc main_arg12)) := by
  show W9 m ρ c (Proc.devRef .tc main_v27) = _
  dsimp only [W9, W8, W7, W6, W5, W4, W3, hostOps1, hostOps1_1, hostOps1_2, hostOps1_3, hostOps1_4, hostOps1_5, hostOps1_6]
  after_results
  rw [pair_at2 m ρ c]
  unfold Cert.ReferenceIdeal.Shared.pairFeat Cert.ReferenceIdeal.Shared.headIdx Cert.ReferenceIdeal.Shared.tailIdx
  rfl

end Cert.KernelIdeal.HostB

end
-- ==== Proof.HostC.lean ====
/-
  The other eight arrays the second launched body is entered with.

  The union features and the two big weights only change format. The two bias vectors are viewed as one row. The last
  weight (4096 × 51), the last bias (51) and the frequency table (22801 × 51) are padded with 77 more columns of a
  padding value, so that the body works on 128 columns; the padded table's rows are then looked up by the bias index.
  Every argument is still as launched when these operations read it.
-/
import proofs.«163864_j16269336118078_2_alg».proof.Proof.Gen.KernelIdeal.Frame
import proofs.«163864_j16269336118078_2_alg».proof.Proof.SharedChain
import Idealize.ShloMosaic.Lib.StableHlo.Run
import Idealize.ShloMosaic.PureOps.Ideal

set_option maxRecDepth 16384

noncomputable section

namespace Cert.KernelIdeal.HostC

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The union features, their format changed. -/
theorem entry_union (c : Dev nD) : V9 m ρ c main_v55
    = truncf (F := Ideal) (s := S49152x2048) (φ := .f32) .bf16 (W2 m ρ c (Proc.devRef .tc main_arg1)) bitsLt_bf16_f32 := by
  show W9 m ρ c (Proc.devRef .tc main_v55) = _
  dsimp only [W9, W8, W7, W6, W5, W4, W3, hostOps1, hostOps1_1, hostOps1_2, hostOps1_3, hostOps1_4, hostOps1_5, hostOps1_6]
  after_results; try rfl

set_option maxHeartbeats 4000000 in
/-- The first gate weight, its format changed. -/
theorem entry_wc (c : Dev nD) : V9 m ρ c main_v56
    = truncf (F := Ideal) (s := S1024x4096) (φ := .f32) .bf16 (W2 m ρ c (Proc.devRef .tc main_arg4)) bitsLt_bf16_f32 := by
  show W9 m ρ c (Proc.devRef .tc main_v56) = _
  dsimp only [W9, W8, W7, W6, W5, W4, W3, hostOps1, hostOps1_1, hostOps1_2, hostOps1_3, hostOps1_4, hostOps1_5, hostOps1_6]
  after_results; try rfl

set_option maxHeartbeats 4000000 in
/-- The second gate weight, its format changed. -/
theorem entry_wu (c : Dev nD) : V9 m ρ c main_v57
    = truncf (F := Ideal) (s := S2048x4096) (φ := .f32) .bf16 (W2 m ρ c (Proc.devRef .tc main_arg6)) bitsLt_bf16_f32 := by
  show W9 m ρ c (Proc.devRef .tc main_v57) = _
  dsimp only [W9, W8, W7, W6, W5, W4, W3, hostOps1, hostOps1_1, hostOps1_2, hostOps1_3, hostOps1_4, hostOps1_5, hostOps1_6]
  after_results; try rfl

set_option maxHeartbeats 4000000 in
/-- The first gate bias as one row. -/
theorem entry_bc (c : Dev nD) : (V9 m ρ c main_v59 : FVec Ideal S1x4096 .f32)
    = shapeCast S1x4096 (W2 m ρ c (Proc.devRef .tc main_arg5) : FVec Ideal S4096 .f32) shapeCasts_S4096_S1x4096 := by
  show W9 m ρ c (Proc.devRef .tc main_v59) = _
  dsimp only [W9, W8, W7, W6, W5, W4, W3, hostOps1, hostOps1_1, hostOps1_2, hostOps1_3, hostOps1_4, hostOps1_5, hostOps1_6]
  after_results; try rfl

set_option maxHeartbeats 4000000 in
/-- The second gate bias as one row. -/
theorem entry_bu (c : Dev nD) : (V9 m ρ c main_v60 : FVec Ideal S1x4096 .f32)
    = shapeCast S1x4096 (W2 m ρ c (Proc.devRef .tc main_arg7) : FVec Ideal S4096 .f32) shapeCasts_S4096_S1x4096 := by
  show W9 m ρ c (Proc.devRef .tc main_v60) = _
  dsimp only [W9, W8, W7, W6, W5, W4, W3, hostOps1, hostOps1_1, hostOps1_2, hostOps1_3, hostOps1_4, hostOps1_5, hostOps1_6]
  after_results; try rfl

set_option maxHeartbeats 4000000 in
/-- The last weight padded to 128 columns, its format changed. -/
theorem entry_wr (c : Dev nD) : V9 m ρ c main_v58
    = truncf (F := Ideal) (s := S4096x128) (φ := .f32) .bf16
        (pad S4096x128 ![0, 0] ![0, 77] ![0, 0] (W2 m ρ c (Proc.devRef .tc main_arg8) : FVec Ideal S4096x51 .f32)
          (sitofp (F := Ideal) .f32 (constantI S_ 32 0#32)) pads_S4096x51_S4096x128_000_0770 h_S_) bitsLt_bf16_f32 := by
  show W9 m ρ c (Proc.devRef .tc main_v58) = _
  dsimp only [W9, W8, W7, W6, W5, W4, W3, hostOps1, hostOps1_1, hostOps1_2, hostOps1_3, hostOps1_4, hostOps1_5, hostOps1_6]
  after_results; try rfl

set_option maxHeartbeats 4000000 in
/-- The last bias padded to 128 entries, as one row. -/
theorem entry_br (c : Dev nD) : (V9 m ρ c main_v61 : FVec Ideal S1x128 .f32)
    = shapeCast S1x128 (pad S128 ![0] ![77] ![0] (W2 m ρ c (Proc.devRef .tc main_arg9) : FVec Ideal S51 .f32)
          (sitofp (F := Ideal) .f32 (constantI S_ 32 0#32)) pads_S51_S128_0770 h_S_) shapeCasts_S128_S1x128 := by
  show W9 m ρ c (Proc.devRef .tc main_v61) = _
  dsimp only [W9, W8, W7, W6, W5, W4, W3, hostOps1, hostOps1_1, hostOps1_2, hostOps1_3, hostOps1_4, hostOps1_5, hostOps1_6]
  after_results; try rfl

end Cert.KernelIdeal.HostC

end
-- ==== Proof.HostD.lean ====
/-
  The table rows the second launched body is entered with.

  The frequency table is padded with 77 more columns, and for every pair its row number class(head)·151 + class(tail)
  (the bias index, the same function of the class vector and the pair table that the reference forms) picks one row of
  the padded table.
-/
import proofs.«163864_j16269336118078_2_alg».proof.Proof.Gen.KernelIdeal.Frame
import proofs.«163864_j16269336118078_2_alg».proof.Proof.SharedChain
import Idealize.ShloMosaic.Lib.StableHlo.Run
import Idealize.ShloMosaic.PureOps.Ideal

set_option maxRecDepth 16384

noncomputable section

namespace Cert.KernelIdeal.HostD

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
/-- The second body's table input: the padded frequency table's rows at the bias index. -/
theorem entry_table (c : Dev nD) : V9 m ρ c main_v54
    = Host.gather gather_S22801x128_S49152x1_S49152x128_1_0_n_n_0_1_1128
        (pad S22801x128 ![0, 0] ![0, 77] ![0, 0] (W2 m ρ c (Proc.devRef .tc main_arg10) : FVec Ideal S22801x51 .f32)
          (sitofp (F := Ideal) .f32 (constantI S_ 32 0#32)) pads_S22801x51_S22801x128_000_0770 h_S_)
        (Cert.ReferenceIdeal.Shared.biasIdx (W2 m ρ c (Proc.devRef .tc main_arg11)) (W2 m ρ c (Proc.devRef .tc main_arg12))) := by
  show W9 m ρ c (Proc.devRef .tc main_v54) = _
  dsimp only [W9, W8, W7, W6, W5, W4, W3, hostOps1, hostOps1_1, hostOps1_2, hostOps1_3, hostOps1_4, hostOps1_5, hostOps1_6]
  after_results_simp
  unfold Cert.ReferenceIdeal.Shared.biasIdx Cert.ReferenceIdeal.Shared.headIdx Cert.ReferenceIdeal.Shared.tailIdx
  rfl

end Cert.KernelIdeal.HostD

end
-- ==== Proof.LibPadReads.lean ====
/-
  A host `pad` of a matrix read at an entry of the operand, at any extents and element type.

  A pad that adds nothing on any side (all low, high and interior widths zero) returns its operand. A pad that only adds
  columns on the high side reads, at row `p` and a column `Q` that is one of the operand's columns `q`, the operand at
  `(p, q)`: the padding value is never looked at there. The indices are written by coordinates, so each lemma applies to a
  printed operation by unification.
-/
import Idealize.ShloMosaic.Lib.ValueIdx
import Idealize.ShloMosaic.Lib.KernelVsHost

namespace Cert.LibPadReads

open Idealize.ShloMosaic Idealize.ShloMosaic.ValueIdx

variable {α : Type}

/-- Padding a matrix by nothing is the identity. -/
theorem pad_zero_widths {a b : ℕ} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside ![0, 0] ![0, 0] ![0, 0] x v h hu j j fun ax => ?_
  match ax with
  | ⟨0, _⟩ => show (j 0).val = 0 + (j 0).val * (0 + 1); omega
  | ⟨1, _⟩ => show (j 1).val = 0 + (j 1).val * (0 + 1); omega

/-- Padding a matrix with `hi` more columns on the right reads the operand at each of the operand's own columns. -/
theorem pad_high_cols_apply {a b B hi : ℕ} (x : (⟨2, ![a, b]⟩ : Shape).Idx → α) {u : Shape} (v : u.Idx → α)
    (h : (⟨2, ![a, b]⟩ : Shape).Pads ![0, 0] ![0, hi] ![0, 0] ⟨2, ![a, B]⟩) (hu : 0 < u.numel)
    (p : Fin a) (q : Fin b) (Q : Fin B) (hQ : Q.val = q.val) :
    pad ⟨2, ![a, B]⟩ ![0, 0] ![0, hi] ![0, 0] x v h hu (ix2 p Q) = x (ix2 p q) := by
  refine pad_apply_of_inside ![0, 0] ![0, hi] ![0, 0] x v h hu (ix2 p Q) (ix2 p q) fun ax => ?_
  match ax with
  | ⟨0, _⟩ => show p.val = 0 + p.val * (0 + 1); omega
  | ⟨1, _⟩ => show Q.val = 0 + q.val * (0 + 1); omega

end Cert.LibPadReads
-- ==== Proof.LibGatherScatter.lean ====
/-
  Index lemmas for the host gather and the host accumulating scatter at the dimension numbers of a row lookup
  `x[idx]` and of an accumulation `x.at[idx].add(u)` along axis 0, with the indices carried as a column `[M, 1]`
  (the index vector's axis is the last one and has size one). `N` is the number of rows of the operand, `M` the
  number of indices, `C` the number of columns. A gathered element is the operand's at the index read signed and
  clamped into `[0, N − 1]`; an update lands on row `n` exactly when its index, read signed and NOT clamped, is `n`;
  so at the exact sum an accumulated row is the operand's plus the sum of the updates whose index is that row.
-/
import Idealize.ShloMosaic.Lib.ValueIdx
import Idealize.ShloMosaic.PureOps.Ideal
import Idealize.ShloMosaic.PureOps.Ideal.Laws

noncomputable section

open scoped BigOperators

namespace Cert.GatherScatter

open Idealize.ShloMosaic Idealize.ShloMosaic.ValueIdx

/-! ## The gather of whole rows: operand `[N, C]`, indices `[M, 1]`, result `[M, C]` -/

/-- The dimension numbers of a gather of whole rows: operand `[N, C]`, start indices `[M, 1]`, result `[M, C]`;
    the result's axis 1 is the one offset axis, the operand's axis 0 is collapsed and is the one the start index
    names, a slice is one row `[1, C]`. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's element in column `j` of the row whose number is the start
    index `idx[e, 0]`, read signed and clamped into `[0, N − 1]`. -/
theorem gather_row_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j)
      = x (ix2 ⟨min (idx (ix2 e 0)).toInt.toNat (N - 1), by omega⟩ j) := by
  -- axis 0: no batching and no offset coordinate (the axis is collapsed); the start is the clamped index
  have h0 : (rowGatherDims N M C wf).start (ix2 e j) idx 0 + (rowGatherDims N M C wf).batchCoord (ix2 e j) 0
      + (rowGatherDims N M C wf).offCoord (ix2 e j) 0 = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e j) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: the start index does not name it (start 0), no batching; the offset coordinate is the column
  have h1 : (rowGatherDims N M C wf).start (ix2 e j) idx 1 + (rowGatherDims N M C wf).batchCoord (ix2 e j) 1
      + (rowGatherDims N M C wf).offCoord (ix2 e j) 1 = j.val := by
    rw [GatherDims.batchCoord_eq_zero _ _ _ List.not_mem_nil]
    unfold GatherDims.start GatherDims.offCoord
    have hne : (1 : Fin 2) ∉ [(0 : Fin 2)] := by decide
    rw [dif_neg (show (1 : Fin 2) ∉ (rowGatherDims N M C wf).startIndexMap from hne),
      dif_pos ((GatherDims.mem_sKept _ _).mpr ⟨hne, List.not_mem_nil⟩)]
    simp only [Nat.add_zero, Nat.zero_add]
    rfl
  unfold Host.gather
  congr 1
  funext a
  refine Fin.ext ?_
  match a with
  | ⟨0, _⟩ => exact h0
  | ⟨1, _⟩ => exact h1

/-! ## The gather of single elements: operand `[N]`, indices `[M, 1]`, result `[M]` -/

/-- The dimension numbers of a gather of single elements of a flat operand: operand `[N]`, start indices `[M, 1]`,
    result `[M]`; no offset axis, the operand's one axis is collapsed and is the one the start index names, a slice
    is one element. The conditions `wf` are decided on a program's literal shapes. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand's element whose number is the start index `idx[e, 0]`, read signed and
    clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulation of whole rows: operand `[N, C]`, indices `[M, 1]`, updates `[M, C]` -/

/-- The dimension numbers of a scatter of whole rows: operand `[N, C]`, scatter indices `[M, 1]`, updates `[M, C]`;
    the updates' axis 1 is the one window axis, the operand's axis 0 is inserted and is the one the scatter index
    names. The conditions `wf` are decided on a program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the operand's axis 0 the window of update `(e, j)` starts at the scatter index `idx[e, 0]`, read signed. -/
theorem rowScatter_start_zero :
    (rowScatterDims N M C wf).start (ix2 e j) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e j)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which the scatter index does not name, the window starts at `0`. -/
theorem rowScatter_start_one : (rowScatterDims N M C wf).start (ix2 e j) idx 1 = 0 := by
  unfold ScatterDims.start
  have hne : (1 : Fin 2) ∉ [(0 : Fin 2)] := by decide
  rw [dif_neg (show (1 : Fin 2) ∉ (rowScatterDims N M C wf).scatterDimsToOperandDims from hne)]

/-- The operand's axis 0 is inserted: the window coordinate there is `0`. -/
theorem rowScatter_window_zero : (rowScatterDims N M C wf).window (ix2 e j) 0 = 0 := by
  unfold ScatterDims.window
  have hk : (0 : Fin 2) ∉ (List.finRange 2).filter (· ∉ [(0 : Fin 2)]) := by decide
  rw [dif_neg (show (0 : Fin 2) ∉ (rowScatterDims N M C wf).sKept from hk)]

/-- On the operand's axis 1 the window coordinate of update `(e, j)` is the column `j`. -/
theorem rowScatter_window_one : (rowScatterDims N M C wf).window (ix2 e j) 1 = j.val := by
  unfold ScatterDims.window
  have hk : (1 : Fin 2) ∈ (List.finRange 2).filter (· ∉ [(0 : Fin 2)]) := by decide
  rw [dif_pos (show (1 : Fin 2) ∈ (rowScatterDims N M C wf).sKept from hk)]
  rfl

/-- WHERE A ROW UPDATE LANDS: update `(e, j)` lands on operand element `(n, j')` exactly when its scatter index
    `idx[e, 0]`, read signed (and not clamped), is `n` and the columns agree; an index outside `[0, N − 1]` lands
    nowhere. -/
theorem scatter_row_lands (n : Fin N) (j' : Fin C) :
    (rowScatterDims N M C wf).resultIdx? (ix2 e j) idx = some (ix2 n j')
      ↔ (idx (ix2 e 0)).toInt = (n.val : Int) ∧ j = j' := by
  have s0 := rowScatter_start_zero wf idx e j
  have s1 := rowScatter_start_one wf idx e j
  have w0 := rowScatter_window_zero wf e j
  have w1 := rowScatter_window_one wf e j
  unfold ScatterDims.resultIdx?
  split
  · rename_i h
    rw [Option.some.injEq]
    constructor
    · intro hf
      have h0 := h 0
      have e0 := congrArg Fin.val (congrFun hf 0)
      have e1 := congrArg Fin.val (congrFun hf 1)
      simp only [s0, s1, w0, w1] at h0 e0 e1
      refine ⟨?_, Fin.ext ?_⟩
      · have : ((idx (ix2 e 0)).toInt + ((0 : Nat) : Int)).toNat = n.val := e0
        omega
      · have : ((0 : Int) + (j.val : Int)).toNat = j'.val := e1
        omega
    · rintro ⟨hn, rfl⟩
      funext a
      refine Fin.ext ?_
      match a with
      | ⟨0, _⟩ =>
        show ((rowScatterDims N M C wf).start (ix2 e j) idx 0 + ((rowScatterDims N M C wf).window (ix2 e j) 0 : Nat)).toNat = n.val
        rw [s0, w0, hn]; omega
      | ⟨1, _⟩ =>
        show ((rowScatterDims N M C wf).start (ix2 e j) idx 1 + ((rowScatterDims N M C wf).window (ix2 e j) 1 : Nat)).toNat = j.val
        rw [s1, w1]; omega
  · rename_i h
    constructor
    · intro hf; exact absurd hf (by simp)
    · rintro ⟨hn, rfl⟩
      refine absurd (fun a => ?_) h
      match a with
      | ⟨0, _⟩ =>
        show 0 ≤ (rowScatterDims N M C wf).start (ix2 e j) idx 0 + ((rowScatterDims N M C wf).window (ix2 e j) 0 : Nat)
          ∧ (rowScatterDims N M C wf).start (ix2 e j) idx 0 + ((rowScatterDims N M C wf).window (ix2 e j) 0 : Nat) < (N : Int)
        rw [s0, w0, hn]; have := n.isLt; omega
      | ⟨1, _⟩ =>
        show 0 ≤ (rowScatterDims N M C wf).start (ix2 e j) idx 1 + ((rowScatterDims N M C wf).window (ix2 e j) 1 : Nat)
          ∧ (rowScatterDims N M C wf).start (ix2 e j) idx 1 + ((rowScatterDims N M C wf).window (ix2 e j) 1 : Nat) < (C : Int)
        rw [s1, w1]; have := j.isLt; omega

end RowScatter

/-- THE ROW ACCUMULATION READ AT `(n, j)`, at the exact sum: the operand's element plus the sum, over the updates
    `e` whose scatter index `idx[e, 0]` read signed is the row `n`, of the update's element in column `j`. -/
theorem scatterAdd_row_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowScatterDims N M C wf) x idx upd (ix2 n j)
      = x (ix2 n j) + ∑ e ∈ Finset.univ.filter (fun e : Fin M => (idx (ix2 e 0)).toInt = (n.val : Int)),
          upd (ix2 e j) := by
  unfold Ideal.hostScatterAdd
  refine congrArg (x (ix2 n j) + ·) ?_
  rw [Finset.sum_filter, sum_idx2, Finset.sum_filter]
  refine Finset.sum_congr rfl fun e _ => ?_
  simp only [scatter_row_lands]
  by_cases hn : (idx (ix2 e 0)).toInt = (n.val : Int)
  · simp only [hn, true_and, if_true]
    rw [Finset.sum_ite_eq' Finset.univ j (fun b => upd (ix2 e b)), if_pos (Finset.mem_univ j)]
  · simp only [hn, false_and, if_false, Finset.sum_const_zero]

/-! ## The accumulation of single elements: operand `[N]`, indices `[M, 1]`, updates `[M]` -/

/-- The dimension numbers of a scatter of single elements into a flat operand: operand `[N]`, scatter indices
    `[M, 1]`, updates `[M]`; no window axis, the operand's one axis is inserted and is the one the scatter index
    names. The conditions `wf` are decided on a program's literal shapes. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

/-- On the operand's one axis the window of update `e` starts at the scatter index `idx[e, 0]`, read signed. -/
theorem flatScatter_start_zero :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e)
      ⟨List.idxOf (0 : Fin 1) (flatScatterDims N M wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate there is `0`. -/
theorem flatScatter_window_zero : (flatScatterDims N M wf).window (ix1 e) 0 = 0 := by
  unfold ScatterDims.window
  have hk : (0 : Fin 1) ∉ (List.finRange 1).filter (· ∉ [(0 : Fin 1)]) := by decide
  rw [dif_neg (show (0 : Fin 1) ∉ (flatScatterDims N M wf).sKept from hk)]

/-- WHERE A FLAT UPDATE LANDS: update `e` lands on operand element `n` exactly when its scatter index `idx[e, 0]`,
    read signed (and not clamped), is `n`; an index outside `[0, N − 1]` lands nowhere. -/
theorem scatter_flat_lands (n : Fin N) :
    (flatScatterDims N M wf).resultIdx? (ix1 e) idx = some (ix1 n) ↔ (idx (ix2 e 0)).toInt = (n.val : Int) := by
  have s0 := flatScatter_start_zero wf idx e
  have w0 := flatScatter_window_zero wf e
  unfold ScatterDims.resultIdx?
  split
  · rename_i h
    rw [Option.some.injEq]
    constructor
    · intro hf
      have h0 := h 0
      have e0 := congrArg Fin.val (congrFun hf 0)
      simp only [s0, w0] at h0 e0
      have : ((idx (ix2 e 0)).toInt + ((0 : Nat) : Int)).toNat = n.val := e0
      omega
    · intro hn
      funext a
      obtain rfl : a = 0 := Subsingleton.elim _ _
      refine Fin.ext ?_
      show ((flatScatterDims N M wf).start (ix1 e) idx 0 + ((flatScatterDims N M wf).window (ix1 e) 0 : Nat)).toNat = n.val
      rw [s0, w0, hn]; omega
  · rename_i h
    constructor
    · intro hf; exact absurd hf (by simp)
    · intro hn
      refine absurd (fun a => ?_) h
      obtain rfl : a = 0 := Subsingleton.elim _ _
      show 0 ≤ (flatScatterDims N M wf).start (ix1 e) idx 0 + ((flatScatterDims N M wf).window (ix1 e) 0 : Nat)
        ∧ (flatScatterDims N M wf).start (ix1 e) idx 0 + ((flatScatterDims N M wf).window (ix1 e) 0 : Nat) < (N : Int)
      rw [s0, w0, hn]; have := n.isLt; omega

end FlatScatter

/-- A sum over a rank-1 index set is the sum over its one coordinate. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT ACCUMULATION READ AT `n`, at the exact sum: the operand's element plus the sum of the updates `e` whose
    scatter index `idx[e, 0]` read signed is `n`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e 0)).toInt = (n.val : Int)),
          upd (ix1 e) := by
  unfold Ideal.hostScatterAdd
  refine congrArg (x (ix1 n) + ·) ?_
  rw [Finset.sum_filter, sum_idx1, Finset.sum_filter]
  refine Finset.sum_congr rfl fun e _ => ?_
  simp only [scatter_flat_lands]

end Cert.GatherScatter

end
-- ==== Proof.LibPadGather.lean ====
/-
  A few reads that meet when a kernel works on a column-padded copy of a host array.

  A vector of length n viewed as one row [1, n] reads, at (0, q), the vector at q. A vector padded on the high side reads
  the vector at each of the vector's own positions. Looking up whole rows of a matrix that was padded with more columns,
  at one of the matrix's own columns, is looking up the rows of the matrix itself: the row is the same clamped index and
  the padding is never looked at. A plain matrix product does not depend on the format tags of its operands: two
  products whose operands agree entry by entry are equal entry by entry, whatever the printed record of the second, as
  long as it is the plain one. All at the extended reals where values matter, generic in the extents.
-/
import proofs.«163864_j16269336118078_2_alg».proof.Proof.LibPadReads
import proofs.«163864_j16269336118078_2_alg».proof.Proof.LibGatherScatter
import Idealize.ShloMosaic.Lib.StackMember
import Idealize.ShloMosaic.Lib.Pipeline.Value
import Idealize.ShloMosaic.Lib.ValueIdx
import Idealize.ShloMosaic.Lib.KernelVsHost

noncomputable section

open scoped BigOperators

namespace Cert.LibPadGather

open Idealize.ShloMosaic Idealize.ShloMosaic.ValueIdx

variable {α : Type}

/-- A vector viewed as one row reads, at (0, q), the vector at q. -/
theorem rowView_apply {n : Nat} (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) := by
  refine (shapeCast_addUnit_apply ![n] v h (ix2 (0 : Fin 1) q)).trans (congrArg v ?_)
  funext a
  match a with
  | ⟨0, _⟩ => rfl

/-- A vector padded with `hi` more entries at the end reads the vector at each of the vector's own positions. -/
theorem pad_high_vec_apply {b B hi : ℕ} (x : (⟨1, ![b]⟩ : Shape).Idx → α) {u : Shape} (v : u.Idx → α)
    (h : (⟨1, ![b]⟩ : Shape).Pads ![0] ![hi] ![0] ⟨1, ![B]⟩) (hu : 0 < u.numel) (q : Fin b) (Q : Fin B) (hQ : Q.val = q.val) :
    pad ⟨1, ![B]⟩ ![0] ![hi] ![0] x v h hu (ix1 Q) = x (ix1 q) := by
  refine pad_apply_of_inside ![0] ![hi] ![0] x v h hu (ix1 Q) (ix1 q) fun ax => ?_
  match ax with
  | ⟨0, _⟩ => show Q.val = 0 + q.val * (0 + 1); omega

/-- Rows looked up in a column-padded matrix, read at one of the matrix's own columns, are the rows looked up in the
    matrix itself. -/
theorem gather_rows_padded {N M b B hi w : Nat} (hN : 0 < N)
    (wfB : GatherDims.WF ⟨2, ![N, B]⟩ ⟨2, ![M, 1]⟩ ⟨2, ![M, B]⟩ [1] [0] [] [0] [] 1 ![1, B])
    (wfb : GatherDims.WF ⟨2, ![N, b]⟩ ⟨2, ![M, 1]⟩ ⟨2, ![M, b]⟩ [1] [0] [] [0] [] 1 ![1, b])
    (gB : GatherDims ⟨2, ![N, B]⟩ ⟨2, ![M, 1]⟩ ⟨2, ![M, B]⟩) (hgB : gB = Cert.GatherScatter.rowGatherDims N M B wfB)
    (gb : GatherDims ⟨2, ![N, b]⟩ ⟨2, ![M, 1]⟩ ⟨2, ![M, b]⟩) (hgb : gb = Cert.GatherScatter.rowGatherDims N M b wfb)
    (x : (⟨2, ![N, b]⟩ : Shape).Idx → α) {u : Shape} (v : u.Idx → α)
    (h : (⟨2, ![N, b]⟩ : Shape).Pads ![0, 0] ![0, hi] ![0, 0] ⟨2, ![N, B]⟩) (hu : 0 < u.numel)
    (idx : IVec ⟨2, ![M, 1]⟩ w) (e : Fin M) (q : Fin b) (Q : Fin B) (hQ : Q.val = q.val) :
    Host.gather gB (pad ⟨2, ![N, B]⟩ ![0, 0] ![0, hi] ![0, 0] x v h hu) idx (ix2 e Q) = Host.gather gb x idx (ix2 e q) := by
  subst hgB hgb
  rw [Cert.GatherScatter.gather_row_apply hN wfB, Cert.GatherScatter.gather_row_apply hN wfb]
  exact Cert.LibPadReads.pad_high_cols_apply x v h hu _ q Q hQ

/-- Two plain products whose operands agree entry by entry agree entry by entry, whatever their operands' format tags
    and whatever name the second's dimension record was printed under. -/
theorem dot_congr {M K N : Nat} {φ₁ φ₂ ψ₁ ψ₂ : FTy} (D : DotDims ⟨2, ![M, K]⟩ ⟨2, ![K, N]⟩ ⟨2, ![M, N]⟩) (hD : D = DotDims.plain M K N)
    (prec prec' : Option ContractPrecision)
    (A : FVec Ideal ⟨2, ![M, K]⟩ φ₁) (B : FVec Ideal ⟨2, ![K, N]⟩ φ₂) (A' : FVec Ideal ⟨2, ![M, K]⟩ ψ₁) (B' : FVec Ideal ⟨2, ![K, N]⟩ ψ₂)
    (hA : ∀ a c, A (ix2 a c) = A' (ix2 a c)) (hB : ∀ c b, B (ix2 c b) = B' (ix2 c b)) (a : Fin M) (b : Fin N) :
    Host.dotGeneral (DotDims.plain M K N) prec A B (ix2 a b) = Host.dotGeneral D prec' A' B' (ix2 a b) := by
  subst hD
  rw [StackMember.dotGeneral_plain_apply, StackMember.dotGeneral_plain_apply]
  exact Finset.sum_congr rfl fun c _ => by rw [hA, hB]

end Cert.LibPadGather

end
-- ==== Proof.Join.lean ====
/-
  The two programs' results are one array.

  The idealized kernel returns the first 51 columns of its second body's output; that output is gate·Wr' + br' + T' of the
  arrays the body is entered with, where Wr', br' and the table behind T' are the reference's Wr, br and frequency table
  with 77 padding columns added, and the pair features come from the first body's output X·W + b. The reference computes
  ((F·Wc + bc) ∘ (U·Wu + bu))·Wr + br + T[bias] from the same X·W + b. At an entry (r, q) with q < 51 both are the sum over
  the 4096 gate columns of the same gate times Wr(k, q), plus br(q), plus row bias(r) of the table at column q: a padded
  array read at one of its own columns is the array, a change of format is the identity on the extended reals, and a
  vector viewed as one row reads the vector.
-/
import proofs.«163864_j16269336118078_2_alg».proof.Proof.Gen.KernelIdeal.Frame
import proofs.«163864_j16269336118078_2_alg».proof.Proof.SharedChain
import proofs.«163864_j16269336118078_2_alg».proof.Proof.RefRead
import proofs.«163864_j16269336118078_2_alg».proof.Proof.Region0
import proofs.«163864_j16269336118078_2_alg».proof.Proof.Region1
import proofs.«163864_j16269336118078_2_alg».proof.Proof.HostA
import proofs.«163864_j16269336118078_2_alg».proof.Proof.HostB
import proofs.«163864_j16269336118078_2_alg».proof.Proof.HostC
import proofs.«163864_j16269336118078_2_alg».proof.Proof.HostD
import proofs.«163864_j16269336118078_2_alg».proof.Proof.LibPadGather
import proofs.«163864_j16269336118078_2_alg».proof.Proof.LibPadReads
import proofs.«163864_j16269336118078_2_alg».proof.Proof.LibHostReads
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Join

open Cert.KernelIdeal Cert.KernelIdeal.Gen
open Idealize.ShloMosaic Idealize.ShloMosaic.TcCoe Idealize.ShloMosaic.ValueIdx Idealize.SL.Sem
open Cert.ReferenceIdeal.Shared (pairFeat biasIdx projRef refOut refGate)

/-- The first body's output is the reference's projected rows: the same product (a change of format is the identity)
    plus the same bias (the bias viewed as one row, against the bias broadcast down the rows). -/
theorem rows_eq (a0 : FVec Ideal S6144x512 .f32) (a2 : FVec Ideal S512x1024 .f32) (a3 : FVec Ideal S1024 .f32) :
    PostEmb.proj (truncf (F := Ideal) (s := S6144x512) (φ := .f32) .bf16 a0 bitsLt_bf16_f32)
      (truncf (F := Ideal) (s := S512x1024) (φ := .f32) .bf16 a2 bitsLt_bf16_f32)
      (shapeCast S1x1024 a3 shapeCasts_S1024_S1x1024)
    = projRef a0 a2 a3 := by
  funext i
  obtain ⟨p, q, rfl⟩ : ∃ (p : Fin 6144) (q : Fin 1024), i = ix2 p q := ⟨i 0, i 1, eq_ix2 i⟩
  unfold PostEmb.proj projRef
  rw [addf_apply]
  refine congrArg₂ (· + ·) ?_ ?_
  · exact Cert.LibPadGather.dot_congr _ rfl none none _ _ a0 a2 (fun _ _ => rfl) (fun _ _ => rfl) p q
  · exact (Cert.LibPadGather.rowView_apply a3 shapeCasts_S1024_S1x1024 q).trans
      (Cert.LibHostReads.rowBias_apply (by decide) _ _ a3 p q).symm

variable (m : (ℓ : Loc nD τ sig) → Buf (Elt Ideal) ℓ) (ρ : Dev nD → PrngReg)

set_option maxHeartbeats 4000000 in
/-- THE RETURNED ARRAY of the idealized kernel is the reference's function of the argument arrays. -/
theorem result_eq (c : Dev nD) :
    W11 m ρ c (Proc.devRef .tc main_v63)
      = refOut (projRef (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext i
  obtain ⟨r, q, rfl⟩ : ∃ (r : Fin 49152) (q : Fin 51), i = ix2 r q := ⟨i 0, i 1, eq_ix2 i⟩
  have hQ : q.val < 128 := by have := q.isLt; omega
  have hE : W2 m ρ c (Proc.devRef .tc main_v3) = projRef (m ((c.tc : Thread nD τ).loc main_arg0)) (m ((c.tc : Thread nD τ).loc main_arg2)) (m ((c.tc : Thread nD τ).loc main_arg3)) := by
    refine ((W2_arr m ρ c 3).trans (PostEmb.final (V1 m ρ) c)).trans ?_
    rw [HostA.entry_rows m ρ c, HostA.entry_weight m ρ c, HostA.entry_bias m ρ c]
    exact rows_eq _ _ _
  have hW : W10 m ρ c (Proc.devRef .tc main_v62)
      = MainBody.mainOut (V9 m ρ c main_v27) (V9 m ρ c main_v55) (V9 m ρ c main_v54) (V9 m ρ c main_v56) (V9 m ρ c main_v59)
          (V9 m ρ c main_v57) (V9 m ρ c main_v60) (V9 m ρ c main_v58) (V9 m ρ c main_v61) :=
    (W10_arr m ρ c 9).trans (MainBody.final (V9 m ρ) c)
  rw [HostA.result_slice m ρ c,
    extractStridedSlice_apply ![0, 0] _ slices_S49152x128_S49152x51_0_0 (ix2 r q) (ix2 r (⟨q.val, hQ⟩ : Fin 128)) (fun ax => by
      match ax with
      | ⟨0, _⟩ => show r.val = 0 + r.val; omega
      | ⟨1, _⟩ => show q.val = 0 + q.val; omega),
    hW, HostB.entry_feat m ρ c, HostC.entry_union m ρ c, HostD.entry_table m ρ c, HostC.entry_wc m ρ c, HostC.entry_bc m ρ c,
    HostC.entry_wu m ρ c, HostC.entry_bu m ρ c, HostC.entry_wr m ρ c, HostC.entry_br m ρ c, hE,
    HostA.arg1_at2 m ρ c, HostA.arg4_at2 m ρ c, HostA.arg5_at2 m ρ c, HostA.arg6_at2 m ρ c, HostA.arg7_at2 m ρ c,
    HostA.arg8_at2 m ρ c, HostA.arg9_at2 m ρ c, HostA.arg10_at2 m ρ c, HostA.arg11_at2 m ρ c, HostA.arg12_at2 m ρ c,
    Cert.ReferenceIdeal.Shared.refOut_apply]
  unfold MainBody.mainOut
  refine congrArg₂ (· + ·) (congrArg₂ (· + ·) (Finset.sum_congr rfl fun k _ => ?_) ?_) ?_
  · -- one gate column: the same gate, and the padded weight at one of the weight's own columns
    refine congrArg₂ (· * ·) ?_ ?_
    · unfold MainBody.gate refGate
      refine congrArg₂ (· * ·) (congrArg₂ (· + ·) ?_ ?_) (congrArg₂ (· + ·) ?_ ?_)
      · exact Cert.LibPadGather.dot_congr (φ₁ := .bf16) (φ₂ := .bf16) (ψ₁ := .f32) (ψ₂ := .f32) _ rfl none none _ _ _ (m ((c.tc : Thread nD τ).loc main_arg4)) (fun _ _ => rfl) (fun _ _ => rfl) r k
      · exact Cert.LibPadGather.rowView_apply (m ((c.tc : Thread nD τ).loc main_arg5)) shapeCasts_S4096_S1x4096 k
      · exact Cert.LibPadGather.dot_congr (φ₁ := .bf16) (φ₂ := .bf16) (ψ₁ := .f32) (ψ₂ := .f32) _ rfl none none _ _ (m ((c.tc : Thread nD τ).loc main_arg1)) (m ((c.tc : Thread nD τ).loc main_arg6)) (fun _ _ => rfl) (fun _ _ => rfl) r k
      · exact Cert.LibPadGather.rowView_apply (m ((c.tc : Thread nD τ).loc main_arg7)) shapeCasts_S4096_S1x4096 k
    · exact Cert.LibPadReads.pad_high_cols_apply (m ((c.tc : Thread nD τ).loc main_arg8)) _ pads_S4096x51_S4096x128_000_0770 h_S_ k q _ rfl
  · -- the padded bias, viewed as one row, at one of the bias's own positions
    exact (Cert.LibPadGather.rowView_apply _ shapeCasts_S128_S1x128 _).trans
      (Cert.LibPadGather.pad_high_vec_apply (m ((c.tc : Thread nD τ).loc main_arg9)) _ pads_S51_S128_0770 h_S_ q _ rfl)
  · -- the same row of the table, looked up in the padded table at one of the table's own columns
    exact Cert.LibPadGather.gather_rows_padded (by decide) gather_S22801x128_S49152x1_S49152x128_1_0_n_n_0_1_1128_wf
      Cert.ReferenceIdeal.Gen.gather_S22801x51_S49152x1_S49152x51_1_0_n_n_0_1_151_wf _ rfl _ rfl (m ((c.tc : Thread nD τ).loc main_arg10)) _
      pads_S22801x51_S22801x128_000_0770 h_S_ _ r q _ rfl

end Cert.KernelIdeal.Join

end
-- ==== Proof.lean ====
/-
  The claim: the kernel and its idealization run and leave their arguments alone, the idealization changes nothing that
  needs a statement, and at the extended reals the idealized kernel and the idealized reference return the same array.

  The kernel computes relation scores in two grid-launched bodies: projected rows X·W + b, then, from each pair's two
  looked-up half rows F and its union features U, the gate (F·Wc + bc) ∘ (U·Wu + bu), its product with Wr, the bias br and
  a row of the frequency table. It works in a narrower float format between steps and on 128 columns where the reference
  has 51. At the extended reals a change of format is the identity, a padded array read at one of its own columns is the
  array, a tiled product is the product, and the index chains are the same operations in both programs; so the two results
  are one function of the arguments (Proof/Join.lean), each run ends at it, and the arguments agree by hypothesis.
-/
import proofs.«163864_j16269336118078_2_alg».proof.Defs
import proofs.«163864_j16269336118078_2_alg».proof.Proof.Gen.Kernel
import proofs.«163864_j16269336118078_2_alg».proof.Proof.Gen.Kernel.Skeleton
import proofs.«163864_j16269336118078_2_alg».proof.Proof.Gen.Kernel.Launch
import proofs.«163864_j16269336118078_2_alg».proof.Proof.Gen.Kernel.Points
import proofs.«163864_j16269336118078_2_alg».proof.Proof.Gen.Kernel.Frame
import proofs.«163864_j16269336118078_2_alg».proof.Proof.Gen.KernelIdeal
import proofs.«163864_j16269336118078_2_alg».proof.Proof.Gen.KernelIdeal.Skeleton
import proofs.«163864_j16269336118078_2_alg».proof.Proof.Gen.KernelIdeal.Launch
import proofs.«163864_j16269336118078_2_alg».proof.Proof.Gen.KernelIdeal.Points
import proofs.«163864_j16269336118078_2_alg».proof.Proof.Gen.KernelIdeal.Frame
import proofs.«163864_j16269336118078_2_alg».proof.Proof.Gen.ReferenceIdeal
import proofs.«163864_j16269336118078_2_alg».proof.Proof.Gen.Pre_finite_inputs
import proofs.«163864_j16269336118078_2_alg».proof.Proof.Gen.ReferenceIdeal.Run
import proofs.«163864_j16269336118078_2_alg».proof.Proof.KernelRun
import proofs.«163864_j16269336118078_2_alg».proof.Proof.SharedChain
import proofs.«163864_j16269336118078_2_alg».proof.Proof.Join
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launched body: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's function of the argument arrays, read at the kernel's arguments:
    the kernel's by the join of the two sides, the reference's because its arguments are the kernel's. -/
theorem algebraic : Cert.algebraic_KernelIdeal_ReferenceIdeal := by
  intro m ρ m' ρ' _ hagree
  refine ⟨fun c => Cert.KernelIdeal.Gen.W11 m ρ c (Proc.devRef .tc Cert.KernelIdeal.main_v63),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Shared.res_eq m' c, h0, h1, h2, h3, h4, h5, h6, h7, h8, h9, h10, h11, h12]
  exact (Cert.KernelIdeal.Join.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
